-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16
  ∧ IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16
  ∧ IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16
  ∧ IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16
  ∧ IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16
  ∧ IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16
  ∧ IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16
  ∧ IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x2048x3 : Shape := ⟨3, ![8, 2048, 3]⟩
abbrev S8x3x2048 : Shape := ⟨3, ![8, 3, 2048]⟩
abbrev S1x1 : Shape := ⟨2, ![1, 1]⟩
abbrev S1x3x2048 : Shape := ⟨3, ![1, 3, 2048]⟩
abbrev S3x2048 : Shape := ⟨2, ![3, 2048]⟩
abbrev S2048 : Shape := ⟨1, ![2048]⟩
abbrev S1x2048 : Shape := ⟨2, ![1, 2048]⟩
abbrev S16x2048 : Shape := ⟨2, ![16, 2048]⟩
abbrev S16x256 : Shape := ⟨2, ![16, 256]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1x2048 : Shape := ⟨3, ![1, 1, 2048]⟩
abbrev S_ : Shape := ⟨0, ![]⟩

abbrev nBuf : Space → Nat
  | .hbm => 8
  | .vmem => 3
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x3x2048, .f32⟩
  | .hbm, ⟨3, _⟩ => ⟨S8x3x2048, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x3x2048, .f32⟩
  | .local _ .vmem, ⟨1, _⟩ => ⟨S8x3x2048, .f32⟩
  | .local _ .vmem, ⟨2, _⟩ => ⟨S1x1, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  transposes_S8x2048x3_S8x3x2048_0_2_1 : S8x2048x3.Transposes [0, 2, 1] S8x3x2048
  inb_S8x3x2048_S1x3x2048_0_0_0 : ∀ a, (![0, 0, 0] : Fin 3 → Nat) a + S1x3x2048.size a ≤ S8x3x2048.size a
  h_S1x3x2048 : 0 < S1x3x2048.numel
  shapeCasts_S1x3x2048_S3x2048 : S1x3x2048.ShapeCasts S3x2048
  bitsLt_bf16_f32 : FTy.bits .bf16 < FTy.bits .f32
  reduces_S3x2048_S2048 : S3x2048.Reduces [0] S2048
  shapeCasts_S2048_S1x2048 : S2048.ShapeCasts S1x2048
  concatenates_S3x2048_S3x2048_S3x2048_S3x2048_S1x2048_S1x2048_S1x2048_S1x2048_S16x2048_d0 : Shape.Concatenates [S3x2048, S3x2048, S3x2048, S3x2048, S1x2048, S1x2048, S1x2048, S1x2048] S16x2048 0
  slices_S16x2048_o0_0_S16x256 : S16x2048.Slices ![0, 0] S16x256
  reduces_S256x2048_S256 : S256x2048.Reduces [1] S256
  shapeCasts_S256_S256x1 : S256.ShapeCasts S256x1
  reduces_S256x2048_S2048 : S256x2048.Reduces [0] S2048
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  slices_S16x2048_o0_256_S16x256 : S16x2048.Slices ![0, 256] S16x256
  slices_S16x2048_o0_512_S16x256 : S16x2048.Slices ![0, 512] S16x256
  slices_S16x2048_o0_768_S16x256 : S16x2048.Slices ![0, 768] S16x256
  slices_S16x2048_o0_1024_S16x256 : S16x2048.Slices ![0, 1024] S16x256
  slices_S16x2048_o0_1280_S16x256 : S16x2048.Slices ![0, 1280] S16x256
  slices_S16x2048_o0_1536_S16x256 : S16x2048.Slices ![0, 1536] S16x256
  slices_S16x2048_o0_1792_S16x256 : S16x2048.Slices ![0, 1792] S16x256
  shapeCasts_S1x2048_S1x1x2048 : S1x2048.ShapeCasts S1x1x2048
  reduces_S1x1x2048_S1 : S1x1x2048.Reduces [1, 2] S1
  inb_S8x3x2048_S1x3x2048_1_0_0 : ∀ a, (![1, 0, 0] : Fin 3 → Nat) a + S1x3x2048.size a ≤ S8x3x2048.size a
  inb_S8x3x2048_S1x3x2048_2_0_0 : ∀ a, (![2, 0, 0] : Fin 3 → Nat) a + S1x3x2048.size a ≤ S8x3x2048.size a
  inb_S8x3x2048_S1x3x2048_3_0_0 : ∀ a, (![3, 0, 0] : Fin 3 → Nat) a + S1x3x2048.size a ≤ S8x3x2048.size a
  inb_S8x3x2048_S1x3x2048_4_0_0 : ∀ a, (![4, 0, 0] : Fin 3 → Nat) a + S1x3x2048.size a ≤ S8x3x2048.size a
  inb_S8x3x2048_S1x3x2048_5_0_0 : ∀ a, (![5, 0, 0] : Fin 3 → Nat) a + S1x3x2048.size a ≤ S8x3x2048.size a
  inb_S8x3x2048_S1x3x2048_6_0_0 : ∀ a, (![6, 0, 0] : Fin 3 → Nat) a + S1x3x2048.size a ≤ S8x3x2048.size a
  inb_S8x3x2048_S1x3x2048_7_0_0 : ∀ a, (![7, 0, 0] : Fin 3 → Nat) a + S1x3x2048.size a ≤ S8x3x2048.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S16x256_S16x2048_S256x2048_0_0_1_1_n_n_wf : DotDims.WF S16x256 S16x2048 S256x2048 [0] [0] [1] [1] [] []
  hstage0_0 : ∀ j, (stage0_0 j).IsWhole
  hstage0_1 : ∀ j, (stage0_1 j).IsWhole
  hstage0_2 : ∀ j, (stage0_2 j).IsWhole

variable [Facts₀]

def dot_S16x256_S16x2048_S256x2048_0_0_1_1_n_n : DotDims S16x256 S16x2048 S256x2048 where
  lhsContracting := [0]
  rhsContracting := [0]
  lhsNonContracting := [1]
  rhsNonContracting := [1]
  lhsBatch := []
  rhsBatch := []
  wf := dot_S16x256_S16x2048_S256x2048_0_0_1_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_v1) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048 : Shape := ⟨2, ![8, 2048]⟩
abbrev S8 : Shape := ⟨1, ![8]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1x3, .f32⟩
  | .hbm, ⟨3, _⟩ => ⟨S8x1x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S8x2048x2048x3, .f32⟩
  | .hbm, ⟨8, _⟩ => ⟨S_, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x2048x1x3, .f32⟩
  | .hbm, ⟨22, _⟩ => ⟨S8x1x2048x3, .f32⟩
  | .hbm, ⟨23, _⟩ => ⟨S8x2048x2048x3, .f32⟩
  | .hbm, ⟨24, _⟩ => ⟨S8x2048x2048x3, .f32⟩
  | .hbm, ⟨25, _⟩ => ⟨S8x2048x2048x3, .f32⟩
  | .hbm, ⟨26, _⟩ => ⟨S8x2048x2048x3, .f32⟩
  | .hbm, ⟨27, _⟩ => ⟨S_, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  reducesTo_S8x2048x2048_S8x2048_d2 : S8x2048x2048.ReducesTo [2] S8x2048
  reducesTo_S8x2048_S8_d1 : S8x2048.ReducesTo [1] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.KStruct.lean ====
import proofs.«112489_g47682726920370_cont_8to1_c_550_10_alg».proof.Proof.Gen.KernelIdeal.Frame

/-!
# The kernel body's arithmetic, batch by batch

The body handles the eight batch elements one after the other. For one batch element it builds two
16-row operands from the two 3×2048 coordinate blocks, cuts the first into eight strips of 256 points,
multiplies each strip (contracting the 16 rows) with the second operand into a 256×2048 matrix of pairwise
values, and from each such matrix takes the row minima (summed over the strip) and the column minima
(combined across strips by a pointwise minimum, then summed). The batch element's contribution is the sum of
the eight strip sums plus the sum of the combined column minima; the contributions are added up batch by
batch. This file names these pieces as functions and shows that the value the body stores is their composition.
-/

set_option maxRecDepth 16384

noncomputable section

namespace Cert.Chamfer

open Idealize.ShloMosaic Idealize.SL.Sem Cert.KernelIdeal Cert.KernelIdeal.Gen

variable {F : FTy → Type} [FloatOps F]

/-- Strip `r` of the sixteen-row operand starts at column `256 r`. -/
theorem slices_strip : ∀ r : Fin 8, S16x2048.Slices ![0, 256 * r.val] S16x256 := by decide

/-- The 256×2048 matrix of one strip: entry (i, j) contracts the sixteen rows of column `off + i` of the
    first operand with column `j` of the second. -/
def dmat (off : Fin 2 → Nat) (h : S16x2048.Slices off S16x256) (aa bb : FVec F S16x2048 .bf16) :
    FVec F S256x2048 .f32 :=
  matmul dot_S16x256_S16x2048_S256x2048_0_0_1_1_n_n none (extractStridedSlice S16x256 off aa h) bb
    (constant S256x2048 .f32 0x00000000#32)

/-- Strip `r`'s matrix. -/
def dstrip (aa bb : FVec F S16x2048 .bf16) (r : Fin 8) : FVec F S256x2048 .f32 :=
  dmat ![0, 256 * r.val] (slices_strip r) aa bb

/-- The sum over a strip's 256 rows of each row's minimum. -/
def rowPart (d : FVec F S256x2048 .f32) : FVec F S1x1 .f32 :=
  broadcast S1x1 (extractAt ![0, 0, 0] (shapeCast S1x1x1 (multiReduction .add [1, 2] S1
    (shapeCast S1x256x1 (shapeCast S256x1
      (multiReduction .minimumf [1] S256 d 0x7F800000#32 reduces_S256x2048_S256 (.inl rfl) rfl)
      shapeCasts_S256_S256x1) shapeCasts_S256x1_S1x256x1)
    0x00000000#32 reduces_S1x256x1_S1 (.inl rfl) rfl) shapeCasts_S1_S1x1x1) inpos_S1x1x1_p0_0_0)

/-- A strip's column minima, as one row. -/
def colPart (d : FVec F S256x2048 .f32) : FVec F S1x2048 .f32 :=
  shapeCast S1x2048 (multiReduction .minimumf [0] S2048 d 0x7F800000#32 reduces_S256x2048_S2048 (.inl rfl) rfl)
    shapeCasts_S2048_S1x2048

/-- The sum of a row of 2048 values. -/
def colTotal (c : FVec F S1x2048 .f32) : FVec F S1x1 .f32 :=
  broadcast S1x1 (extractAt ![0, 0, 0] (shapeCast S1x1x1 (multiReduction .add [1, 2] S1
    (shapeCast S1x1x2048 c shapeCasts_S1x2048_S1x1x2048)
    0x00000000#32 reduces_S1x1x2048_S1 (.inl rfl) rfl) shapeCasts_S1_S1x1x1) inpos_S1x1x1_p0_0_0)

/-- The eight strips' row parts, added in order. -/
def rowSum (aa bb : FVec F S16x2048 .bf16) : FVec F S1x1 .f32 :=
  addf (addf (addf (addf (addf (addf (addf (rowPart (dstrip aa bb 0)) (rowPart (dstrip aa bb 1)))
    (rowPart (dstrip aa bb 2))) (rowPart (dstrip aa bb 3))) (rowPart (dstrip aa bb 4)))
    (rowPart (dstrip aa bb 5))) (rowPart (dstrip aa bb 6))) (rowPart (dstrip aa bb 7))

/-- The eight strips' column minima, combined in order. -/
def colMin (aa bb : FVec F S16x2048 .bf16) : FVec F S1x2048 .f32 :=
  minimumf (minimumf (minimumf (minimumf (minimumf (minimumf (minimumf (colPart (dstrip aa bb 0))
    (colPart (dstrip aa bb 1))) (colPart (dstrip aa bb 2))) (colPart (dstrip aa bb 3)))
    (colPart (dstrip aa bb 4))) (colPart (dstrip aa bb 5))) (colPart (dstrip aa bb 6))) (colPart (dstrip aa bb 7))

/-- One batch element's contribution, from its two sixteen-row operands. -/
def batch (aa bb : FVec F S16x2048 .bf16) : FVec F S1x1 .f32 :=
  addf (rowSum aa bb) (colTotal (colMin aa bb))

/-- One batch element's contribution, from its two coordinate blocks. -/
def batchOf (x y : Vec F S1x3x2048 .f32) : FVec F S1x1 .f32 := batch (k0_pay3 x) (k0_pay4 y)

/-- Batch element 0. -/
theorem batch0_eq (x y : Vec F S1x3x2048 .f32) :
    k0_pay21 (k0_pay19 (k0_pay3 x) (k0_pay4 y) (k0_pay11 (k0_pay3 x) (k0_pay4 y) (k0_pay7 x y) (k0_pay8 x y)) (k0_pay15 (k0_pay3 x) (k0_pay4 y)))
      (k0_pay20 (k0_pay3 x) (k0_pay4 y) (k0_pay12 (k0_pay3 x) (k0_pay4 y) (k0_pay6 x y) (k0_pay8 x y)) (k0_pay14 (k0_pay3 x) (k0_pay4 y)))
      = batchOf x y := rfl

/-- Batch element 1, added to the running total `T`. -/
theorem batch1_eq (T : FVec F S1x1 .f32) (x y : Vec F S1x3x2048 .f32) :
    k0_pay42 T
      (k0_pay40 (k0_pay23 x) (k0_pay24 y) (k0_pay32 (k0_pay23 x) (k0_pay24 y) (k0_pay27 x y) (k0_pay28 x) (constant S256x2048 .f32 0x00000000#32)) (k0_pay36 (k0_pay23 x) (k0_pay24 y)))
      (k0_pay41 (k0_pay23 x) (k0_pay24 y) (k0_pay33 (k0_pay23 x) (k0_pay24 y) (k0_pay26 x y) (k0_pay28 x) (constant S256x2048 .f32 0x00000000#32)) (k0_pay35 (k0_pay23 x) (k0_pay24 y)))
      = addf T (batchOf x y) := rfl

/-- Batch element 2, added to the running total `T`. -/
theorem batch2_eq (T : FVec F S1x1 .f32) (x y : Vec F S1x3x2048 .f32) :
    k0_pay62 T
      (k0_pay60 (k0_pay44 x) (k0_pay45 y) (k0_pay52 (k0_pay44 x) (k0_pay45 y) (k0_pay48 x y)) (k0_pay55 (k0_pay44 x) (k0_pay45 y)))
      (k0_pay61 (k0_pay44 x) (k0_pay45 y) (k0_pay53 (k0_pay44 x) (k0_pay45 y) (k0_pay47 x y)) (k0_pay56 (k0_pay44 x) (k0_pay45 y)))
      = addf T (batchOf x y) := rfl

/-- Batch element 3, added to the running total `T`. -/
theorem batch3_eq (T : FVec F S1x1 .f32) (x y : Vec F S1x3x2048 .f32) :
    k0_pay83 T
      (k0_pay78 (k0_pay64 x) (k0_pay65 y) (k0_pay72 (k0_pay64 x) (k0_pay65 y) (k0_pay68 x y)) (k0_pay75 (k0_pay64 x) (k0_pay65 y)))
      (k0_pay79 (k0_pay64 x) (k0_pay65 y) (k0_pay73 (k0_pay64 x) (k0_pay65 y) (k0_pay67 x y)) (k0_pay74 (k0_pay64 x) (k0_pay65 y)))
      (k0_pay81 (k0_pay64 x) (k0_pay65 y))
      (k0_pay82 (k0_pay64 x) (k0_pay65 y))
      = addf T (batchOf x y) := rfl

/-- Batch element 4, added to the running total `T`. -/
theorem batch4_eq (T : FVec F S1x1 .f32) (x y : Vec F S1x3x2048 .f32) :
    k0_pay104 T
      (k0_pay99 (k0_pay85 x) (k0_pay86 y) (k0_pay93 (k0_pay85 x) (k0_pay86 y) (k0_pay88 x y)) (k0_pay95 (k0_pay85 x)) (constant S256x2048 .f32 0x00000000#32))
      (k0_pay100 (k0_pay85 x) (k0_pay86 y) (k0_pay94 (k0_pay85 x) (k0_pay86 y) (k0_pay89 x y)) (k0_pay95 (k0_pay85 x)) (constant S256x2048 .f32 0x00000000#32))
      (k0_pay102 (k0_pay85 x) (k0_pay86 y))
      (k0_pay103 (k0_pay85 x) (k0_pay86 y))
      = addf T (batchOf x y) := rfl

/-- Batch element 5, added to the running total `T`. -/
theorem batch5_eq (T : FVec F S1x1 .f32) (x y : Vec F S1x3x2048 .f32) :
    k0_pay124 T
      (k0_pay119 (k0_pay106 x) (k0_pay107 y) (k0_pay115 (k0_pay106 x) (k0_pay107 y) (k0_pay109 x y)))
      (k0_pay120 (k0_pay106 x) (k0_pay107 y) (k0_pay112 (k0_pay106 x) (k0_pay107 y) (k0_pay108 x y)) (k0_pay114 (k0_pay106 x) (k0_pay107 y)))
      (k0_pay122 (k0_pay106 x) (k0_pay107 y))
      (k0_pay123 (k0_pay106 x) (k0_pay107 y))
      = addf T (batchOf x y) := rfl

/-- Batch element 6, added to the running total `T`. -/
theorem batch6_eq (T : FVec F S1x1 .f32) (x y : Vec F S1x3x2048 .f32) :
    k0_pay144 T
      (k0_pay140 (k0_pay126 x) (k0_pay127 y) (k0_pay132 (k0_pay126 x) (k0_pay127 y) (k0_pay128 x) (constant S256x2048 .f32 0x00000000#32)) (k0_pay136 (k0_pay126 x) (k0_pay127 y)))
      (k0_pay141 (k0_pay126 x) (k0_pay127 y) (k0_pay133 (k0_pay126 x) (k0_pay127 y) (k0_pay128 x) (constant S256x2048 .f32 0x00000000#32)) (k0_pay135 (k0_pay126 x) (k0_pay127 y)))
      (k0_pay142 (k0_pay126 x) (k0_pay127 y))
      (k0_pay143 (k0_pay126 x) (k0_pay127 y))
      = addf T (batchOf x y) := rfl

/-- Batch element 7, added to the running total `T`. -/
theorem batch7_eq (T : FVec F S1x1 .f32) (x y : Vec F S1x3x2048 .f32) :
    k0_pay1 T
      (k0_pay153 (k0_pay146 y) (k0_pay147 y) (k0_pay149 y) (k0_pay150 y) (k0_pay151 (F := F)))
      (k0_pay165 (k0_pay152 x) (k0_pay153 (k0_pay146 y) (k0_pay147 y) (k0_pay149 y) (k0_pay150 y) (k0_pay151 (F := F))) (k0_pay157 (k0_pay146 y) (k0_pay147 y) (k0_pay149 y) (k0_pay150 y) (k0_pay151 (F := F)) (k0_pay152 x)) (k0_pay161 (k0_pay146 y) (k0_pay147 y) (k0_pay149 y) (k0_pay150 y) (k0_pay151 (F := F)) (k0_pay152 x)))
      (k0_pay166 (k0_pay152 x) (k0_pay153 (k0_pay146 y) (k0_pay147 y) (k0_pay149 y) (k0_pay150 y) (k0_pay151 (F := F))) (k0_pay158 (k0_pay146 y) (k0_pay147 y) (k0_pay149 y) (k0_pay150 y) (k0_pay151 (F := F)) (k0_pay152 x)) (k0_pay160 (k0_pay146 y) (k0_pay147 y) (k0_pay149 y) (k0_pay150 y) (k0_pay151 (F := F)) (k0_pay152 x)))
      (k0_pay167 (k0_pay152 x))
      (constant S256x2048 .f32 0x00000000#32)
      = addf T (batchOf x y) := rfl

/-- The value stored: the eight batch elements' contributions, added in order. -/
def total (x0 x1 : Vec F S8x3x2048 .f32) : FVec F S1x1 .f32 :=
  addf (addf (addf (addf (addf (addf (addf (batchOf (View.ld x0 r0_0) (View.ld x1 r0_0))
    (batchOf (View.ld x0 r0_1) (View.ld x1 r0_1)))
    (batchOf (View.ld x0 r0_2) (View.ld x1 r0_2)))
    (batchOf (View.ld x0 r0_3) (View.ld x1 r0_3)))
    (batchOf (View.ld x0 r0_4) (View.ld x1 r0_4)))
    (batchOf (View.ld x0 r0_5) (View.ld x1 r0_5)))
    (batchOf (View.ld x0 r0_6) (View.ld x1 r0_6)))
    (batchOf (View.ld x0 r0_7) (View.ld x1 r0_7))

/-- What the body leaves in the output block is `total` of the two input blocks, stored through the block's one
    rectangle. -/
theorem out0_2_eq (x0 x1 : Vec F S8x3x2048 .f32) :
    out0_2 x0 x1 = View.canon [⟨r0_8, total x0 x1⟩] := by
  unfold out0_2
  rw [batch7_eq, batch6_eq, batch5_eq, batch4_eq, batch3_eq, batch2_eq, batch1_eq, batch0_eq]
  rfl

end Cert.Chamfer

end
-- ==== Proof.Algebra.lean ====
import Idealize.ShloMosaic.PureOps.Ideal

/-!
# The arithmetic behind the Chamfer sum, free of any program

* the minimum of a family over `Fin n`, folded from `+∞`, by its universal property, and the same minimum
  taken strip by strip over `Fin 2048 = 8 × 256`;
* a sum over `Fin 2048` taken strip by strip;
* the squared distance of two points of ℝ³ written two ways: as the sum of the squared coordinate
  differences, and as the sixteen-term product sum `-2 a·b + |b|² + |a|²` with its vanishing correction terms;
* multiplication by a finite non-negative constant distributes over sums of extended reals, so the
  two ways of averaging (divide the total by 32768; or divide by 2048, by 8, add, and halve) agree.
-/

noncomputable section

open scoped BigOperators

namespace Cert.Chamfer.Alg

/-! ## Minima folded from `+∞` -/

/-- The minimum of `f` over `Fin n`, from `+∞`. -/
def fmin {n : Nat} (f : Fin n → EReal) : EReal := (Finset.univ : Finset (Fin n)).fold min ⊤ f

/-- It is the greatest lower bound of the values. -/
theorem le_fmin_iff {n : Nat} (f : Fin n → EReal) (c : EReal) : c ≤ fmin f ↔ ∀ k, c ≤ f k := by
  unfold fmin
  rw [Finset.le_fold_min]
  simp

/-- Eight values combined in order, left to right. -/
def nest8 {α : Type} (op : α → α → α) (h : Fin 8 → α) : α :=
  op (op (op (op (op (op (op (h 0) (h 1)) (h 2)) (h 3)) (h 4)) (h 5)) (h 6)) (h 7)

theorem le_nest8_min (c : EReal) (h : Fin 8 → EReal) : c ≤ nest8 min h ↔ ∀ r, c ≤ h r := by
  unfold nest8
  simp only [le_min_iff]
  constructor
  · rintro ⟨⟨⟨⟨⟨⟨⟨h0, h1⟩, h2⟩, h3⟩, h4⟩, h5⟩, h6⟩, h7⟩ r
    fin_cases r
    exacts [h0, h1, h2, h3, h4, h5, h6, h7]
  · intro H
    exact ⟨⟨⟨⟨⟨⟨⟨H 0, H 1⟩, H 2⟩, H 3⟩, H 4⟩, H 5⟩, H 6⟩, H 7⟩

theorem nest8_add (h : Fin 8 → EReal) : nest8 (· + ·) h = ∑ r, h r := by
  unfold nest8
  rw [Fin.sum_univ_eight]

/-! ## Strips: `Fin 2048` as eight runs of 256 -/

/-- Point `i` of strip `r`. -/
def strip (r : Fin 8) (i : Fin 256) : Fin 2048 :=
  ⟨256 * r.val + i.val, by have := r.isLt; have := i.isLt; omega⟩

theorem strip_val (r : Fin 8) (i : Fin 256) : (strip r i).val = 256 * r.val + i.val := rfl

/-- Every point lies in exactly one strip. -/
def stripEquiv : Fin 8 × Fin 256 ≃ Fin 2048 where
  toFun p := strip p.1 p.2
  invFun k := (⟨k.val / 256, by have := k.isLt; omega⟩, ⟨k.val % 256, by omega⟩)
  left_inv := fun ⟨r, i⟩ => Prod.ext
    (Fin.ext (by show (256 * r.val + i.val) / 256 = r.val; have := i.isLt; omega))
    (Fin.ext (by show (256 * r.val + i.val) % 256 = i.val; have := i.isLt; omega))
  right_inv := fun k => Fin.ext (by show 256 * (k.val / 256) + k.val % 256 = k.val; omega)

/-- A sum over all points, strip by strip. -/
theorem sum_strips (g : Fin 2048 → EReal) : ∑ k, g k = ∑ r : Fin 8, ∑ i : Fin 256, g (strip r i) := by
  rw [← Equiv.sum_comp stripEquiv g, Fintype.sum_prod_type]
  rfl

/-- A minimum over all points, strip by strip. -/
theorem fmin_strips (g : Fin 2048 → EReal) : fmin g = nest8 min (fun r => fmin fun i => g (strip r i)) := by
  apply eq_of_forall_le_iff
  intro c
  rw [le_fmin_iff, le_nest8_min]
  simp only [le_fmin_iff]
  constructor
  · intro H r i
    exact H _
  · intro H k
    have h := H (stripEquiv.symm k).1 (stripEquiv.symm k).2
    rwa [show strip (stripEquiv.symm k).1 (stripEquiv.symm k).2 = k from stripEquiv.apply_symm_apply k] at h

/-! ## The squared distance, two ways -/

/-- The squared distance of two points, as an extended real. -/
def sq (a b : Fin 3 → ℝ) : EReal := ((∑ k : Fin 3, (a k - b k) * (a k - b k) : ℝ) : EReal)

theorem sq_comm (a b : Fin 3 → ℝ) : sq a b = sq b a := by
  unfold sq
  congr 1
  exact Finset.sum_congr rfl fun k _ => by ring

/-- The reference's spelling: coordinate differences, squared and summed, on the extended reals. -/
theorem ref_dist (a b : Fin 3 → ℝ) :
    ∑ k : Fin 3, ((a k : EReal) - (b k : EReal)) * ((a k : EReal) - (b k : EReal)) = sq a b := by
  unfold sq
  simp only [Fin.sum_univ_three]
  norm_cast

/-- A real minus itself is zero on the extended reals. -/
theorem coe_sub_self (r : ℝ) : (r : EReal) - (r : EReal) = 0 := by
  rw [← EReal.coe_sub, sub_self, EReal.coe_zero]

/-- A point's squared norm, summed on the extended reals, is a real. -/
theorem norm_coe (a : Fin 3 → ℝ) :
    ∑ k : Fin 3, (a k : EReal) * (a k : EReal) = ((a 0 * a 0 + a 1 * a 1 + a 2 * a 2 : ℝ) : EReal) := by
  simp only [Fin.sum_univ_three]
  norm_cast

/-- The sixteen rows of the first operand at a point `a`: `-2a` (three rows), three zeros, `-2a` again, three
    zeros, two ones, `|a|²`, a zero. -/
def rowA (a : Fin 3 → ℝ) : Fin 16 → EReal :=
  ![((a 0 * (-2) : ℝ) : EReal), ((a 1 * (-2) : ℝ) : EReal), ((a 2 * (-2) : ℝ) : EReal), 0, 0, 0,
    ((a 0 * (-2) : ℝ) : EReal), ((a 1 * (-2) : ℝ) : EReal), ((a 2 * (-2) : ℝ) : EReal), 0, 0, 0,
    1, 1, ((a 0 * a 0 + a 1 * a 1 + a 2 * a 2 : ℝ) : EReal), 0]

/-- The sixteen rows of the second operand at a point `b`: `b` twice, six zeros, `|b|²`, a zero, two ones. -/
def rowB (b : Fin 3 → ℝ) : Fin 16 → EReal :=
  ![(b 0 : EReal), (b 1 : EReal), (b 2 : EReal), (b 0 : EReal), (b 1 : EReal), (b 2 : EReal), 0, 0, 0, 0, 0, 0,
    ((b 0 * b 0 + b 1 * b 1 + b 2 * b 2 : ℝ) : EReal), 0, 1, 1]

/-- The kernel's spelling: the sixteen products sum to `-2 a·b + |b|² + |a|²`, the squared distance. -/
theorem ker_dist (a b : Fin 3 → ℝ) : ∑ k : Fin 16, rowA a k * rowB b k = sq a b := by
  have hR : sq a b = ((a 0 * (-2) * b 0 + (a 1 * (-2) * b 1 + (a 2 * (-2) * b 2
      + ((b 0 * b 0 + b 1 * b 1 + b 2 * b 2) + (a 0 * a 0 + a 1 * a 1 + a 2 * a 2)))) : ℝ) : EReal) := by
    unfold sq
    congr 1
    rw [Fin.sum_univ_three]
    ring
  rw [hR]
  unfold rowA rowB
  simp only [Fin.sum_univ_succ, Fin.sum_univ_zero, Matrix.cons_val_zero, Matrix.cons_val_succ,
    Fin.succ_zero_eq_one, mul_zero, zero_mul, mul_one, one_mul, add_zero, zero_add]
  simp only [← EReal.coe_mul, ← EReal.coe_add]

/-! ## Averaging -/

/-- Multiplication by a finite non-negative constant, as an additive map of the extended reals. -/
def mulConst (c : ℝ) (hc : 0 ≤ c) : EReal →+ EReal where
  toFun x := x * (c : EReal)
  map_zero' := zero_mul _
  map_add' y z :=
    EReal.right_distrib_of_nonneg_of_ne_top (by exact_mod_cast hc) (EReal.coe_ne_top c) y z

theorem sum_mul_const {ι : Type} (s : Finset ι) (f : ι → EReal) (c : ℝ) (hc : 0 ≤ c) :
    (∑ b ∈ s, f b) * (c : EReal) = ∑ b ∈ s, f b * (c : EReal) :=
  map_sum (mulConst c hc) f s

open Idealize.ShloMosaic in
/-- The two averages: the eight batch totals (row part plus column part each) added in order and divided by
    32768; and each part divided by 2048, summed over the batch, divided by 8, the two added and halved. -/
theorem average_eq (RS CS : Fin 8 → EReal) :
    Ideal.div (nest8 (· + ·) fun b => RS b + CS b) ((32768 : ℝ) : EReal)
      = Ideal.div (Ideal.div (0 + ∑ b, Ideal.div (0 + RS b) ((2048 : ℝ) : EReal)) ((8 : ℝ) : EReal)
          + Ideal.div (0 + ∑ b, Ideal.div (0 + CS b) ((2048 : ℝ) : EReal)) ((8 : ℝ) : EReal)) ((2 : ℝ) : EReal) := by
  rw [nest8_add]
  simp only [Ideal.div_coe (by norm_num : (32768 : ℝ) ≠ 0), Ideal.div_coe (by norm_num : (2048 : ℝ) ≠ 0),
    Ideal.div_coe (by norm_num : (8 : ℝ) ≠ 0), Ideal.div_coe (by norm_num : (2 : ℝ) ≠ 0), zero_add]
  rw [← sum_mul_const _ RS _ (by norm_num), ← sum_mul_const _ CS _ (by norm_num), Finset.sum_add_distrib]
  have h1 := (mulConst (1 / 32768) (by norm_num)).map_add (∑ b, RS b) (∑ b, CS b)
  have h2 := (mulConst (1 / 2) (by norm_num)).map_add ((∑ b, RS b) * ((1 / 2048 : ℝ) : EReal) * ((1 / 8 : ℝ) : EReal))
    ((∑ b, CS b) * ((1 / 2048 : ℝ) : EReal) * ((1 / 8 : ℝ) : EReal))
  simp only [mulConst, AddMonoidHom.coe_mk, ZeroHom.coe_mk] at h1 h2
  rw [h1, h2]
  have hk : ((1 / 2048 : ℝ) : EReal) * ((1 / 8 : ℝ) : EReal) * ((1 / 2 : ℝ) : EReal) = ((1 / 32768 : ℝ) : EReal) := by
    norm_cast; norm_num
  rw [mul_assoc (∑ b, RS b), mul_assoc (∑ b, RS b), mul_assoc (∑ b, CS b), mul_assoc (∑ b, CS b), hk]

end Cert.Chamfer.Alg

end
-- ==== Proof.Consts.lean ====
import Idealize.ShloMosaic.PureOps.Ideal

/-!
# The float constants of the two programs, as extended reals

Each bit pattern the kernel or the reference spells, read as the number it denotes.
-/

noncomputable section

namespace Cert.Chamfer.Consts

open Idealize.ShloMosaic

/-- `+0.0` is `0`. -/
theorem ofBits_zero : Ideal.ofBits .f32 0x00000000#32 = 0 := by
  simp [Ideal.ofBits, Ideal.ieee]

/-- The all-ones exponent with a zero fraction and a clear sign is `+∞`. -/
theorem ofBits_inf : Ideal.ofBits .f32 0x7F800000#32 = ⊤ := by
  simp [Ideal.ofBits, Ideal.ieee]

/-- `-2.0`. -/
theorem ofBits_neg_two : Ideal.ofBits .f32 0xC0000000#32 = ((-2 : ℝ) : EReal) := by
  simp [Ideal.ofBits, Ideal.ieee, -EReal.coe_mul]; norm_num

/-- `2.0`. -/
theorem ofBits_two : Ideal.ofBits .f32 0x40000000#32 = ((2 : ℝ) : EReal) := by
  simp [Ideal.ofBits, Ideal.ieee, -EReal.coe_mul]; norm_num

/-- `8.0`. -/
theorem ofBits_eight : Ideal.ofBits .f32 0x41000000#32 = ((8 : ℝ) : EReal) := by
  simp [Ideal.ofBits, Ideal.ieee, -EReal.coe_mul]; norm_num

/-- `2048.0`. -/
theorem ofBits_2048 : Ideal.ofBits .f32 0x45000000#32 = ((2048 : ℝ) : EReal) := by
  simp [Ideal.ofBits, Ideal.ieee, -EReal.coe_mul]; norm_num

/-- `32768.0`. -/
theorem ofBits_32768 : Ideal.ofBits .f32 0x47000000#32 = ((32768 : ℝ) : EReal) := by
  simp [Ideal.ofBits, Ideal.ieee, -EReal.coe_mul]; norm_num

/-- The sixteen-bit `1.0`. -/
theorem ofBits_one_bf16 : Ideal.ofBits .bf16 0x3F80#16 = 1 := by
  simp [Ideal.ofBits, Ideal.ieee, -EReal.coe_mul]; norm_num

end Cert.Chamfer.Consts

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KRead.lean ====
import proofs.«112489_g47682726920370_cont_8to1_c_550_10_alg».proof.Proof.KStruct
import proofs.«112489_g47682726920370_cont_8to1_c_550_10_alg».proof.Proof.Algebra
import proofs.«112489_g47682726920370_cont_8to1_c_550_10_alg».proof.Proof.Consts
import proofs.«112489_g47682726920370_cont_8to1_c_550_10_alg».proof.Proof.LibKeepdims
import Idealize.ShloMosaic.Lib.ValueIdx
import Idealize.ShloMosaic.Lib.ValueLayout
import Idealize.ShloMosaic.Lib.Pipeline.Value
import Idealize.ShloMosaic.PureOps.Ideal.Laws

/-!
# The strip matrices and their reductions, read at an index

At the exact instance: an entry of a strip's matrix is the sum over the sixteen rows of the products of the
two operands' columns; a strip's row part is the sum over its 256 rows of each row's minimum over the 2048
columns; its column part at column `j` is the minimum over its 256 rows; and the total of a row of 2048
values is their sum.
-/

set_option maxRecDepth 16384

noncomputable section

open scoped BigOperators

namespace Cert.Chamfer

open Idealize.ShloMosaic Idealize.ShloMosaic.ValueIdx Cert.KernelIdeal Cert.KernelIdeal.Gen Cert.Chamfer.Alg

local notation "DD" => dot_S16x256_S16x2048_S256x2048_0_0_1_1_n_n

/-- The contraction runs over the sixteen rows. -/
def rowsEquiv : (DD).contr.Idx ≃ Fin 16 := contrEquiv1 (DD) 16 rfl rfl

theorem lhs_row (j : S256x2048.Idx) (k : Fin 16) : ((DD).lhsIdx j (rowsEquiv.symm k) 0).val = k.val :=
  ((DD).lhsIdx_val_of_single rfl j _).trans (contrEquiv1_symm_val (DD) 16 rfl rfl k)

theorem rhs_row (j : S256x2048.Idx) (k : Fin 16) : ((DD).rhsIdx j (rowsEquiv.symm k) 0).val = k.val :=
  ((DD).rhsIdx_val_of_single rfl j _).trans (contrEquiv1_symm_val (DD) 16 rfl rfl k)

theorem lhs_col (j : S256x2048.Idx) (q : (DD).contr.Idx) : ((DD).lhsIdx j q 1).val = (j 0).val := rfl

theorem rhs_col (j : S256x2048.Idx) (q : (DD).contr.Idx) : ((DD).rhsIdx j q 1).val = (j 1).val := rfl

/-- An entry of strip `r`'s matrix. -/
theorem dstrip_apply (aa bb : FVec Ideal S16x2048 .bf16) (r : Fin 8) (i : Fin 256) (j : Fin 2048) :
    dstrip aa bb r (ix2 i j) = ∑ k : Fin 16, aa (ix2 k (strip r i)) * bb (ix2 k j) := by
  unfold dstrip dmat
  refine (Ideal.matmul_constant_zero_apply (DD) none _ bb (ix2 i j)).trans ?_
  refine (Equiv.sum_comp rowsEquiv.symm _).symm.trans ?_
  refine Finset.sum_congr rfl fun k _ => ?_
  congr 1
  · refine extractStridedSlice_apply _ aa _ _ _ fun a => ?_
    match a with
    | ⟨0, _⟩ =>
      show k.val = 0 + _
      rw [Nat.zero_add]
      exact (lhs_row _ k).symm
    | ⟨1, _⟩ =>
      show 256 * r.val + i.val = 256 * r.val + ((DD).lhsIdx (ix2 i j) (rowsEquiv.symm k) 1).val
      rw [lhs_col]
  · refine congrArg bb (funext fun a => Fin.ext ?_)
    match a with
    | ⟨0, _⟩ => exact rhs_row _ k
    | ⟨1, _⟩ => exact rhs_col _ _

end Cert.Chamfer

end
-- ==== Proof.LibMinReduce.lean ====
import Idealize.ShloMosaic.PureOps.Ideal.Laws

/-!
A minimum reduction over one axis, read at an index, at the exact instance: the fold of `min` from the
accumulator's value over that axis's coordinates. General: any rank, axis, extents and float type.
-/

namespace Cert.LibMinReduce

open Idealize.ShloMosaic

variable {φ : FTy}

/-- A float `vector.multi_reduction <minimumf>` over one axis at the exact instance: the fold of `min` from the
    accumulator's value over that axis's coordinates (the result index with the coordinate inserted on the
    reduced axis). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

end Cert.LibMinReduce
-- ==== Proof.KReduce.lean ====
import proofs.«112489_g47682726920370_cont_8to1_c_550_10_alg».proof.Proof.KStruct
import proofs.«112489_g47682726920370_cont_8to1_c_550_10_alg».proof.Proof.Algebra
import proofs.«112489_g47682726920370_cont_8to1_c_550_10_alg».proof.Proof.Consts
import proofs.«112489_g47682726920370_cont_8to1_c_550_10_alg».proof.Proof.LibKeepdims
import proofs.«112489_g47682726920370_cont_8to1_c_550_10_alg».proof.Proof.LibMinReduce
import Idealize.ShloMosaic.Lib.ValueIdx
import Idealize.ShloMosaic.Lib.ValueLayout
import Idealize.ShloMosaic.Lib.Pipeline.Value
import Idealize.ShloMosaic.PureOps.Ideal.Laws

/-!
# A strip matrix's reductions, read at an index

At the exact instance: a strip's row part is the sum over its 256 rows of each row's minimum over the 2048
columns; its column part at column `j` is the minimum over its 256 rows; and the total of a row of 2048
values is their sum.
-/

set_option maxRecDepth 16384

noncomputable section

open scoped BigOperators

namespace Cert.Chamfer

open Idealize.ShloMosaic Idealize.ShloMosaic.ValueIdx Cert.KernelIdeal Cert.KernelIdeal.Gen Cert.Chamfer.Alg

/-- A row's minimum over the 2048 columns. -/
theorem rowMin_apply (d : FVec Ideal S256x2048 .f32) (k : Fin 256) :
    multiReduction .minimumf [1] S256 d 0x7F800000#32 reduces_S256x2048_S256 (.inl rfl) rfl (ix1 k)
      = fmin fun j : Fin 2048 => d (ix2 k j) := by
  refine (Cert.LibMinReduce.multiReduction_minimumf_single d _ reduces_S256x2048_S256 _ _ (ix1 k)).trans ?_
  unfold fmin
  show Finset.fold min (Ideal.ofBits .f32 0x7F800000#32) _ _ = _
  rw [Consts.ofBits_inf]
  refine congrArg (fun f => Finset.fold min ⊤ f Finset.univ) (funext fun j => ?_)
  exact congrArg d (funext fun a => Fin.ext (by match a with | ⟨0, _⟩ => rfl | ⟨1, _⟩ => rfl))

/-- A column's minimum over the strip's 256 rows. -/
theorem colMin_apply (d : FVec Ideal S256x2048 .f32) (j : Fin 2048) :
    multiReduction .minimumf [0] S2048 d 0x7F800000#32 reduces_S256x2048_S2048 (.inl rfl) rfl (ix1 j)
      = fmin fun i : Fin 256 => d (ix2 i j) := by
  refine (Cert.LibMinReduce.multiReduction_minimumf_single d _ reduces_S256x2048_S2048 _ _ (ix1 j)).trans ?_
  unfold fmin
  show Finset.fold min (Ideal.ofBits .f32 0x7F800000#32) _ _ = _
  rw [Consts.ofBits_inf]
  refine congrArg (fun f => Finset.fold min ⊤ f Finset.univ) (funext fun i => ?_)
  exact congrArg d (funext fun a => Fin.ext (by match a with | ⟨0, _⟩ => rfl | ⟨1, _⟩ => rfl))

/-- The indices of a 1×256×1 array are its 256 middle coordinates. -/
def idxRow : S1x256x1.Idx ≃ Fin 256 where
  toFun i := i 1
  invFun k := ix3 (0 : Fin 1) k (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv k := rfl

/-- The indices of a 1×1×2048 array are its 2048 last coordinates. -/
def idxCol : S1x1x2048.Idx ≃ Fin 2048 where
  toFun i := i 2
  invFun k := ix3 (0 : Fin 1) (0 : Fin 1) k
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
  right_inv k := rfl

/-- The sum of EVERY entry of an array, as the body spells it: reduce over all the kept axes into a one-entry
    vector, cast to 1×1×1, take the entry, splat it over a 1×1 vector. It holds for any source shape. -/
theorem sum_all_read {s : Shape} {axes : List (Fin s.rank)} (X : FVec Ideal s .f32) (h : s.Reduces axes S1)
    (hc : S1.ShapeCasts S1x1x1) (hp : ∀ a, (![0, 0, 0] : Fin 3 → Nat) a < S1x1x1.size a) (w : S1x1.Idx) :
    broadcast S1x1 (extractAt ![0, 0, 0] (shapeCast S1x1x1
      (multiReduction .add axes S1 X 0x00000000#32 h (.inl rfl) rfl) hc) hp) w = ∑ i : s.Idx, X i :=
  Ideal.multiReduction_add_total X 0x00000000#32 h (by decide) (.inl rfl) rfl _

/-- A strip's row part: the sum over its rows of each row's minimum. -/
theorem rowPart_apply (d : FVec Ideal S256x2048 .f32) (w : S1x1.Idx) :
    rowPart d w = ∑ i : Fin 256, fmin fun j : Fin 2048 => d (ix2 i j) := by
  unfold rowPart
  refine (sum_all_read _ reduces_S1x256x1_S1 shapeCasts_S1_S1x1x1 inpos_S1x1x1_p0_0_0 w).trans ?_
  refine (Equiv.sum_comp idxRow.symm _).symm.trans ?_
  refine Finset.sum_congr rfl fun k _ => ?_
  show shapeCast S1x256x1 _ _ (ix3 (0 : Fin 1) k (0 : Fin 1)) = _
  rw [shapeCast_ab_1ab_apply, Cert.LibKeepdims.shapeCast_a_a1_apply]
  exact rowMin_apply d k

/-- A strip's column part at column `j`: the minimum over its rows. -/
theorem colPart_apply (d : FVec Ideal S256x2048 .f32) (u : Fin 1) (j : Fin 2048) :
    colPart d (ix2 u j) = fmin fun i : Fin 256 => d (ix2 i j) := by
  unfold colPart
  rw [shapeCast_a_1a_apply]
  exact colMin_apply d j

/-- The total of a row of 2048 values. -/
theorem colTotal_apply (c : FVec Ideal S1x2048 .f32) (w : S1x1.Idx) :
    colTotal c w = ∑ j : Fin 2048, c (ix2 (0 : Fin 1) j) := by
  unfold colTotal
  refine (sum_all_read _ reduces_S1x1x2048_S1 shapeCasts_S1_S1x1x1 inpos_S1x1x1_p0_0_0 w).trans ?_
  refine (Equiv.sum_comp idxCol.symm _).symm.trans ?_
  refine Finset.sum_congr rfl fun k _ => ?_
  show shapeCast S1x1x2048 _ _ (ix3 (0 : Fin 1) (0 : Fin 1) k) = _
  rw [shapeCast_ab_1ab_apply]

end Cert.Chamfer

end
-- ==== Proof.KRows.lean ====
import proofs.«112489_g47682726920370_cont_8to1_c_550_10_alg».proof.Proof.KStruct
import proofs.«112489_g47682726920370_cont_8to1_c_550_10_alg».proof.Proof.Algebra
import proofs.«112489_g47682726920370_cont_8to1_c_550_10_alg».proof.Proof.Consts
import Idealize.ShloMosaic.Lib.ValueIdx
import Idealize.ShloMosaic.Lib.ValueLayout
import Idealize.ShloMosaic.Lib.Pipeline.Value
import Idealize.ShloMosaic.PureOps.Ideal.Laws

/-!
# The two sixteen-row operands, row by row

For a batch element with points `a i` (first cloud) and `b j` (second cloud) in ℝ³, finite: the first
operand's column `i` holds `-2 a i` in rows 0–2 and 6–8, `1` in rows 12–13, `|a i|²` in row 14, and zeros in
the rows that carry the difference between a value and itself; the second operand's column `j` holds `b j`
in rows 0–2 and 3–5, `|b j|²` in row 12, `1` in rows 14–15, zeros elsewhere. A change of float format is the
identity here, so the "low part" `v - v` of a finite value `v` is zero.
-/

set_option maxRecDepth 16384

noncomputable section

open scoped BigOperators

namespace Cert.Chamfer

open Idealize.ShloMosaic Idealize.ShloMosaic.ValueIdx Cert.KernelIdeal Cert.KernelIdeal.Gen Cert.Chamfer.Alg

section Pieces
variable {F : FTy → Type} [FloatOps F]

/-- The 3×2048 coordinate block. -/
def coords (x : Vec F S1x3x2048 .f32) : FVec F S3x2048 .f32 := shapeCast S3x2048 x shapeCasts_S1x3x2048_S3x2048
/-- The block times `-2`. -/
def scaled (x : Vec F S1x3x2048 .f32) : FVec F S3x2048 .f32 :=
  mulf (coords x) (broadcast S3x2048 (Scalar.ofBits .f32 0xC0000000#32))
def hiA (x : Vec F S1x3x2048 .f32) : FVec F S3x2048 .bf16 := truncf .bf16 (scaled x) bitsLt_bf16_f32
def loA (x : Vec F S1x3x2048 .f32) : FVec F S3x2048 .bf16 := truncf .bf16 (subf (scaled x) (scaled x)) bitsLt_bf16_f32
/-- The squared norms of the 2048 points, as one row. -/
def nrm (x : Vec F S1x3x2048 .f32) : FVec F S1x2048 .f32 :=
  shapeCast S1x2048 (multiReduction .add [0] S2048 (mulf (coords x) (coords x)) 0x00000000#32 reduces_S3x2048_S2048 (.inl rfl) rfl)
    shapeCasts_S2048_S1x2048
def hiN (x : Vec F S1x3x2048 .f32) : FVec F S1x2048 .bf16 := truncf .bf16 (nrm x) bitsLt_bf16_f32
def loN (x : Vec F S1x3x2048 .f32) : FVec F S1x2048 .bf16 := truncf .bf16 (subf (nrm x) (nrm x)) bitsLt_bf16_f32
def ones : FVec F S1x2048 .bf16 := broadcast S1x2048 (Scalar.ofBits .bf16 0x3F80#16)
def hiB (y : Vec F S1x3x2048 .f32) : FVec F S3x2048 .bf16 := truncf .bf16 (coords y) bitsLt_bf16_f32
def loB (y : Vec F S1x3x2048 .f32) : FVec F S3x2048 .bf16 := truncf .bf16 (subf (coords y) (coords y)) bitsLt_bf16_f32

/-- The first operand is its eight pieces stacked. -/
theorem aa_eq (x : Vec F S1x3x2048 .f32) :
    k0_pay3 x = concatenate S16x2048 0 [⟨S3x2048, hiA x⟩, ⟨S3x2048, loA x⟩, ⟨S3x2048, hiA x⟩, ⟨S3x2048, loA x⟩,
      ⟨S1x2048, ones⟩, ⟨S1x2048, ones⟩, ⟨S1x2048, hiN x⟩, ⟨S1x2048, loN x⟩] concatenates_S3x2048_S3x2048_S3x2048_S3x2048_S1x2048_S1x2048_S1x2048_S1x2048_S16x2048_d0 := rfl

/-- The second operand is its eight pieces stacked. -/
theorem bb_eq (y : Vec F S1x3x2048 .f32) :
    k0_pay4 y = concatenate S16x2048 0 [⟨S3x2048, hiB y⟩, ⟨S3x2048, hiB y⟩, ⟨S3x2048, loB y⟩, ⟨S3x2048, loB y⟩,
      ⟨S1x2048, hiN y⟩, ⟨S1x2048, loN y⟩, ⟨S1x2048, ones⟩, ⟨S1x2048, ones⟩] concatenates_S3x2048_S3x2048_S3x2048_S3x2048_S1x2048_S1x2048_S1x2048_S1x2048_S16x2048_d0 := rfl

end Pieces

/-! ## A stack of eight pieces read at each of its sixteen rows -/

theorem cat_row0 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨0, by decide⟩ : Fin 16) i)
      = p0 (ix2 (⟨0, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨0, by decide⟩ : Fin 16) i) 0 (by simp) S3x2048 p0 rfl rfl 0 (by rfl) (ix2 (⟨0, by decide⟩ : Fin 3) i)
    (fun b hb => by match b with | ⟨0, _⟩ => exact absurd rfl hb | ⟨1, _⟩ => rfl) rfl

theorem cat_row1 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨1, by decide⟩ : Fin 16) i)
      = p0 (ix2 (⟨1, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨1, by decide⟩ : Fin 16) i) 0 (by simp) S3x2048 p0 rfl rfl 0 (by rfl) (ix2 (⟨1, by decide⟩ : Fin 3) i)
    (fun b hb => by match b with | ⟨0, _⟩ => exact absurd rfl hb | ⟨1, _⟩ => rfl) rfl

theorem cat_row2 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨2, by decide⟩ : Fin 16) i)
      = p0 (ix2 (⟨2, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨2, by decide⟩ : Fin 16) i) 0 (by simp) S3x2048 p0 rfl rfl 0 (by rfl) (ix2 (⟨2, by decide⟩ : Fin 3) i)
    (fun b hb => by match b with | ⟨0, _⟩ => exact absurd rfl hb | ⟨1, _⟩ => rfl) rfl

theorem cat_row3 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨3, by decide⟩ : Fin 16) i)
      = p1 (ix2 (⟨0, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨3, by decide⟩ : Fin 16) i) 1 (by simp) S3x2048 p1 rfl rfl 3 (by rfl) (ix2 (⟨0, by decide⟩ : Fin 3) i)
    (fun b hb => by match b with | ⟨0, _⟩ => exact absurd rfl hb | ⟨1, _⟩ => rfl) rfl

theorem cat_row4 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨4, by decide⟩ : Fin 16) i)
      = p1 (ix2 (⟨1, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨4, by decide⟩ : Fin 16) i) 1 (by simp) S3x2048 p1 rfl rfl 3 (by rfl) (ix2 (⟨1, by decide⟩ : Fin 3) i)
    (fun b hb => by match b with | ⟨0, _⟩ => exact absurd rfl hb | ⟨1, _⟩ => rfl) rfl

theorem cat_row5 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨5, by decide⟩ : Fin 16) i)
      = p1 (ix2 (⟨2, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨5, by decide⟩ : Fin 16) i) 1 (by simp) S3x2048 p1 rfl rfl 3 (by rfl) (ix2 (⟨2, by decide⟩ : Fin 3) i)
    (fun b hb => by match b with | ⟨0, _⟩ => exact absurd rfl hb | ⟨1, _⟩ => rfl) rfl

theorem cat_row6 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨6, by decide⟩ : Fin 16) i)
      = p2 (ix2 (⟨0, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨6, by decide⟩ : Fin 16) i) 2 (by simp) S3x2048 p2 rfl rfl 6 (by rfl) (ix2 (⟨0, by decide⟩ : Fin 3) i)
    (fun b hb => by match b with | ⟨0, _⟩ => exact absurd rfl hb | ⟨1, _⟩ => rfl) rfl

theorem cat_row7 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨7, by decide⟩ : Fin 16) i)
      = p2 (ix2 (⟨1, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨7, by decide⟩ : Fin 16) i) 2 (by simp) S3x2048 p2 rfl rfl 6 (by rfl) (ix2 (⟨1, by decide⟩ : Fin 3) i)
    (fun b hb => by match b with | ⟨0, _⟩ => exact absurd rfl hb | ⟨1, _⟩ => rfl) rfl

theorem cat_row8 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨8, by decide⟩ : Fin 16) i)
      = p2 (ix2 (⟨2, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨8, by decide⟩ : Fin 16) i) 2 (by simp) S3x2048 p2 rfl rfl 6 (by rfl) (ix2 (⟨2, by decide⟩ : Fin 3) i)
    (fun b hb => by match b with | ⟨0, _⟩ => exact absurd rfl hb | ⟨1, _⟩ => rfl) rfl

theorem cat_row9 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨9, by decide⟩ : Fin 16) i)
      = p3 (ix2 (⟨0, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨9, by decide⟩ : Fin 16) i) 3 (by simp) S3x2048 p3 rfl rfl 9 (by rfl) (ix2 (⟨0, by decide⟩ : Fin 3) i)
    (fun b hb => by match b with | ⟨0, _⟩ => exact absurd rfl hb | ⟨1, _⟩ => rfl) rfl

theorem cat_row10 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨10, by decide⟩ : Fin 16) i)
      = p3 (ix2 (⟨1, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨10, by decide⟩ : Fin 16) i) 3 (by simp) S3x2048 p3 rfl rfl 9 (by rfl) (ix2 (⟨1, by decide⟩ : Fin 3) i)
    (fun b hb => by match b with | ⟨0, _⟩ => exact absurd rfl hb | ⟨1, _⟩ => rfl) rfl

theorem cat_row11 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨11, by decide⟩ : Fin 16) i)
      = p3 (ix2 (⟨2, by decide⟩ : Fin 3) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨11, by decide⟩ : Fin 16) i) 3 (by simp) S3x2048 p3 rfl rfl 9 (by rfl) (ix2 (⟨2, by decide⟩ : Fin 3) i)
    (fun b hb => by match b with | ⟨0, _⟩ => exact absurd rfl hb | ⟨1, _⟩ => rfl) rfl

theorem cat_row12 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨12, by decide⟩ : Fin 16) i)
      = q0 (ix2 (⟨0, by decide⟩ : Fin 1) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨12, by decide⟩ : Fin 16) i) 4 (by simp) S1x2048 q0 rfl rfl 12 (by rfl) (ix2 (⟨0, by decide⟩ : Fin 1) i)
    (fun b hb => by match b with | ⟨0, _⟩ => exact absurd rfl hb | ⟨1, _⟩ => rfl) rfl

theorem cat_row13 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨13, by decide⟩ : Fin 16) i)
      = q1 (ix2 (⟨0, by decide⟩ : Fin 1) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨13, by decide⟩ : Fin 16) i) 5 (by simp) S1x2048 q1 rfl rfl 13 (by rfl) (ix2 (⟨0, by decide⟩ : Fin 1) i)
    (fun b hb => by match b with | ⟨0, _⟩ => exact absurd rfl hb | ⟨1, _⟩ => rfl) rfl

theorem cat_row14 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨14, by decide⟩ : Fin 16) i)
      = q2 (ix2 (⟨0, by decide⟩ : Fin 1) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨14, by decide⟩ : Fin 16) i) 6 (by simp) S1x2048 q2 rfl rfl 14 (by rfl) (ix2 (⟨0, by decide⟩ : Fin 1) i)
    (fun b hb => by match b with | ⟨0, _⟩ => exact absurd rfl hb | ⟨1, _⟩ => rfl) rfl

theorem cat_row15 (p0 p1 p2 p3 : FVec Ideal S3x2048 .bf16) (q0 q1 q2 q3 : FVec Ideal S1x2048 .bf16) (i : Fin 2048) :
    concatenate S16x2048 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨15, by decide⟩ : Fin 16) i)
      = q3 (ix2 (⟨0, by decide⟩ : Fin 1) i) :=
  concatenate_apply_piece (t := S16x2048) 0 [⟨S3x2048, p0⟩, ⟨S3x2048, p1⟩, ⟨S3x2048, p2⟩, ⟨S3x2048, p3⟩, ⟨S1x2048, q0⟩, ⟨S1x2048, q1⟩, ⟨S1x2048, q2⟩, ⟨S1x2048, q3⟩] concatenates_S3x2048_S3x2048_S3x2048_S3x2048_S1x2048_S1x2048_S1x2048_S1x2048_S16x2048_d0 (ix2 (⟨15, by decide⟩ : Fin 16) i) 7 (by simp) S1x2048 q3 rfl rfl 15 (by rfl) (ix2 (⟨0, by decide⟩ : Fin 1) i)
    (fun b hb => by match b with | ⟨0, _⟩ => exact absurd rfl hb | ⟨1, _⟩ => rfl) rfl

/-! ## The pieces at a point -/

section Values
variable (x : Vec Ideal S1x3x2048 .f32) (a : Fin 2048 → Fin 3 → ℝ)
  (hx : ∀ (k : Fin 3) (i : Fin 2048), x (ix3 (0 : Fin 1) k i) = ((a i k : ℝ) : EReal))
include hx

theorem coords_apply (k : Fin 3) (i : Fin 2048) : coords x (ix2 k i) = ((a i k : ℝ) : EReal) := by
  unfold coords
  rw [shapeCast_1ab_ab_apply, hx]

theorem scaled_apply (k : Fin 3) (i : Fin 2048) : scaled x (ix2 k i) = ((a i k * (-2) : ℝ) : EReal) := by
  show coords x (ix2 k i) * Ideal.ofBits .f32 0xC0000000#32 = _
  rw [coords_apply x a hx, Consts.ofBits_neg_two, ← EReal.coe_mul]

theorem hiA_apply (k : Fin 3) (i : Fin 2048) : hiA x (ix2 k i) = ((a i k * (-2) : ℝ) : EReal) :=
  scaled_apply x a hx k i

theorem loA_apply (k : Fin 3) (i : Fin 2048) : loA x (ix2 k i) = 0 := by
  show scaled x (ix2 k i) - scaled x (ix2 k i) = 0
  rw [scaled_apply x a hx, coe_sub_self]

theorem hiB_apply (k : Fin 3) (i : Fin 2048) : hiB x (ix2 k i) = ((a i k : ℝ) : EReal) :=
  coords_apply x a hx k i

theorem loB_apply (k : Fin 3) (i : Fin 2048) : loB x (ix2 k i) = 0 := by
  show coords x (ix2 k i) - coords x (ix2 k i) = 0
  rw [coords_apply x a hx, coe_sub_self]

theorem nrm_apply (u : Fin 1) (i : Fin 2048) :
    nrm x (ix2 u i) = ((a i 0 * a i 0 + a i 1 * a i 1 + a i 2 * a i 2 : ℝ) : EReal) := by
  unfold nrm
  rw [shapeCast_a_1a_apply]
  refine (Ideal.multiReduction_add_single (mulf (coords x) (coords x)) _ reduces_S3x2048_S2048 _ _ (ix1 i)).trans ?_
  refine (Finset.sum_congr rfl fun (k : Fin 3) _ => ?_).trans (norm_coe (a i))
  have e : (reduces_S3x2048_S2048).lift (ix1 i) k = ix2 k i :=
    funext fun c => Fin.ext (by match c with | ⟨0, _⟩ => rfl | ⟨1, _⟩ => rfl)
  rw [e]
  exact congrArg₂ (· * ·) (coords_apply x a hx k i) (coords_apply x a hx k i)

theorem hiN_apply (u : Fin 1) (i : Fin 2048) :
    hiN x (ix2 u i) = ((a i 0 * a i 0 + a i 1 * a i 1 + a i 2 * a i 2 : ℝ) : EReal) :=
  nrm_apply x a hx u i

theorem loN_apply (u : Fin 1) (i : Fin 2048) : loN x (ix2 u i) = 0 := by
  show nrm x (ix2 u i) - nrm x (ix2 u i) = 0
  rw [nrm_apply x a hx, coe_sub_self]

end Values

theorem ones_apply (u : Fin 1) (i : Fin 2048) : (ones : FVec Ideal S1x2048 .bf16) (ix2 u i) = 1 :=
  Consts.ofBits_one_bf16

/-! ## The operands' columns -/

/-- Column `i` of the first operand. -/
theorem aa_row (x : Vec Ideal S1x3x2048 .f32) (a : Fin 2048 → Fin 3 → ℝ)
    (hx : ∀ (k : Fin 3) (i : Fin 2048), x (ix3 (0 : Fin 1) k i) = ((a i k : ℝ) : EReal)) (i : Fin 2048) (k : Fin 16) :
    k0_pay3 x (ix2 k i) = rowA (a i) k := by
  rw [aa_eq]
  fin_cases k
  · exact (cat_row0 _ _ _ _ _ _ _ _ i).trans (hiA_apply x a hx (⟨0, by decide⟩ : Fin 3) i)
  · exact (cat_row1 _ _ _ _ _ _ _ _ i).trans (hiA_apply x a hx (⟨1, by decide⟩ : Fin 3) i)
  · exact (cat_row2 _ _ _ _ _ _ _ _ i).trans (hiA_apply x a hx (⟨2, by decide⟩ : Fin 3) i)
  · exact (cat_row3 _ _ _ _ _ _ _ _ i).trans (loA_apply x a hx (⟨0, by decide⟩ : Fin 3) i)
  · exact (cat_row4 _ _ _ _ _ _ _ _ i).trans (loA_apply x a hx (⟨1, by decide⟩ : Fin 3) i)
  · exact (cat_row5 _ _ _ _ _ _ _ _ i).trans (loA_apply x a hx (⟨2, by decide⟩ : Fin 3) i)
  · exact (cat_row6 _ _ _ _ _ _ _ _ i).trans (hiA_apply x a hx (⟨0, by decide⟩ : Fin 3) i)
  · exact (cat_row7 _ _ _ _ _ _ _ _ i).trans (hiA_apply x a hx (⟨1, by decide⟩ : Fin 3) i)
  · exact (cat_row8 _ _ _ _ _ _ _ _ i).trans (hiA_apply x a hx (⟨2, by decide⟩ : Fin 3) i)
  · exact (cat_row9 _ _ _ _ _ _ _ _ i).trans (loA_apply x a hx (⟨0, by decide⟩ : Fin 3) i)
  · exact (cat_row10 _ _ _ _ _ _ _ _ i).trans (loA_apply x a hx (⟨1, by decide⟩ : Fin 3) i)
  · exact (cat_row11 _ _ _ _ _ _ _ _ i).trans (loA_apply x a hx (⟨2, by decide⟩ : Fin 3) i)
  · exact (cat_row12 _ _ _ _ _ _ _ _ i).trans (ones_apply _ i)
  · exact (cat_row13 _ _ _ _ _ _ _ _ i).trans (ones_apply _ i)
  · exact (cat_row14 _ _ _ _ _ _ _ _ i).trans (hiN_apply x a hx _ i)
  · exact (cat_row15 _ _ _ _ _ _ _ _ i).trans (loN_apply x a hx _ i)

/-- Column `i` of the second operand. -/
theorem bb_row (x : Vec Ideal S1x3x2048 .f32) (a : Fin 2048 → Fin 3 → ℝ)
    (hx : ∀ (k : Fin 3) (i : Fin 2048), x (ix3 (0 : Fin 1) k i) = ((a i k : ℝ) : EReal)) (i : Fin 2048) (k : Fin 16) :
    k0_pay4 x (ix2 k i) = rowB (a i) k := by
  rw [bb_eq]
  fin_cases k
  · exact (cat_row0 _ _ _ _ _ _ _ _ i).trans (hiB_apply x a hx (⟨0, by decide⟩ : Fin 3) i)
  · exact (cat_row1 _ _ _ _ _ _ _ _ i).trans (hiB_apply x a hx (⟨1, by decide⟩ : Fin 3) i)
  · exact (cat_row2 _ _ _ _ _ _ _ _ i).trans (hiB_apply x a hx (⟨2, by decide⟩ : Fin 3) i)
  · exact (cat_row3 _ _ _ _ _ _ _ _ i).trans (hiB_apply x a hx (⟨0, by decide⟩ : Fin 3) i)
  · exact (cat_row4 _ _ _ _ _ _ _ _ i).trans (hiB_apply x a hx (⟨1, by decide⟩ : Fin 3) i)
  · exact (cat_row5 _ _ _ _ _ _ _ _ i).trans (hiB_apply x a hx (⟨2, by decide⟩ : Fin 3) i)
  · exact (cat_row6 _ _ _ _ _ _ _ _ i).trans (loB_apply x a hx (⟨0, by decide⟩ : Fin 3) i)
  · exact (cat_row7 _ _ _ _ _ _ _ _ i).trans (loB_apply x a hx (⟨1, by decide⟩ : Fin 3) i)
  · exact (cat_row8 _ _ _ _ _ _ _ _ i).trans (loB_apply x a hx (⟨2, by decide⟩ : Fin 3) i)
  · exact (cat_row9 _ _ _ _ _ _ _ _ i).trans (loB_apply x a hx (⟨0, by decide⟩ : Fin 3) i)
  · exact (cat_row10 _ _ _ _ _ _ _ _ i).trans (loB_apply x a hx (⟨1, by decide⟩ : Fin 3) i)
  · exact (cat_row11 _ _ _ _ _ _ _ _ i).trans (loB_apply x a hx (⟨2, by decide⟩ : Fin 3) i)
  · exact (cat_row12 _ _ _ _ _ _ _ _ i).trans (hiN_apply x a hx _ i)
  · exact (cat_row13 _ _ _ _ _ _ _ _ i).trans (loN_apply x a hx _ i)
  · exact (cat_row14 _ _ _ _ _ _ _ _ i).trans (ones_apply _ i)
  · exact (cat_row15 _ _ _ _ _ _ _ _ i).trans (ones_apply _ i)

end Cert.Chamfer

end
-- ==== Proof.KValue.lean ====
import proofs.«112489_g47682726920370_cont_8to1_c_550_10_alg».proof.Proof.KRead
import proofs.«112489_g47682726920370_cont_8to1_c_550_10_alg».proof.Proof.KReduce
import proofs.«112489_g47682726920370_cont_8to1_c_550_10_alg».proof.Proof.KRows

/-!
# The body's total, as a formula

For one batch element with real points `a i` and `b j`: every entry of a strip's matrix is the squared
distance of its two points, so the eight strips' row parts add up to the sum over all points `a i` of the
minimum over `j`, and the combined column minima add up to the sum over all points `b j` of the minimum
over `i`. The total is the eight batch elements' two-sided sums, added in order.
-/

set_option maxRecDepth 16384

noncomputable section

open scoped BigOperators

namespace Cert.Chamfer

open Idealize.ShloMosaic Idealize.ShloMosaic.ValueIdx Cert.KernelIdeal Cert.KernelIdeal.Gen Cert.Chamfer.Alg

attribute [local irreducible] rowPart colPart colTotal dstrip dmat

/-- Eight 1×1 vectors added in order, read at the index: the eight entries added in order. -/
theorem addNest_apply (f : Fin 8 → FVec Ideal S1x1 .f32) (w : S1x1.Idx) :
    addf (addf (addf (addf (addf (addf (addf (f 0) (f 1)) (f 2)) (f 3)) (f 4)) (f 5)) (f 6)) (f 7) w
      = nest8 (· + ·) (fun r => f r w) := rfl

/-- Eight rows combined by pointwise minimum in order, read at an index. -/
theorem minNest_apply (f : Fin 8 → FVec Ideal S1x2048 .f32) (v : S1x2048.Idx) :
    minimumf (minimumf (minimumf (minimumf (minimumf (minimumf (minimumf (f 0) (f 1)) (f 2)) (f 3)) (f 4)) (f 5)) (f 6)) (f 7) v
      = nest8 min (fun r => f r v) := rfl

/-- One batch element: the sum over the first cloud of the minimum over the second, plus the sum over the second
    of the minimum over the first. -/
theorem batchOf_apply (x y : Vec Ideal S1x3x2048 .f32) (a b : Fin 2048 → Fin 3 → ℝ)
    (hx : ∀ (k : Fin 3) (i : Fin 2048), x (ix3 (0 : Fin 1) k i) = ((a i k : ℝ) : EReal))
    (hy : ∀ (k : Fin 3) (j : Fin 2048), y (ix3 (0 : Fin 1) k j) = ((b j k : ℝ) : EReal)) (w : S1x1.Idx) :
    batchOf x y w = (∑ i : Fin 2048, fmin fun j : Fin 2048 => sq (a i) (b j))
      + ∑ j : Fin 2048, fmin fun i : Fin 2048 => sq (a i) (b j) := by
  have hd : ∀ (r : Fin 8) (i : Fin 256) (j : Fin 2048),
      dstrip (k0_pay3 x) (k0_pay4 y) r (ix2 i j) = sq (a (strip r i)) (b j) := by
    intro r i j
    rw [dstrip_apply]
    simp only [aa_row x a hx, bb_row y b hy]
    exact ker_dist _ _
  unfold batchOf batch
  rw [addf_apply]
  refine congrArg₂ (· + ·) ?_ ?_
  · refine (addNest_apply (fun r => rowPart (dstrip (k0_pay3 x) (k0_pay4 y) r)) w).trans ?_
    rw [nest8_add, sum_strips]
    refine Finset.sum_congr rfl fun r _ => ?_
    rw [rowPart_apply]
    refine Finset.sum_congr rfl fun i _ => ?_
    exact congrArg fmin (funext fun j => hd r i j)
  · rw [colTotal_apply]
    refine Finset.sum_congr rfl fun j _ => ?_
    refine (minNest_apply (fun r => colPart (dstrip (k0_pay3 x) (k0_pay4 y) r)) (ix2 (0 : Fin 1) j)).trans ?_
    rw [fmin_strips]
    refine congrArg (nest8 min) (funext fun r => ?_)
    rw [colPart_apply]
    exact congrArg fmin (funext fun i => hd r i j)

/-! ## The eight batch elements' blocks of the transposed arrays -/

theorem ld_0 (X : Vec Ideal S8x3x2048 .f32) (k : Fin 3) (i : Fin 2048) :
    View.ld X r0_0 (ix3 (0 : Fin 1) k i) = X (ix3 (0 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

theorem ld_1 (X : Vec Ideal S8x3x2048 .f32) (k : Fin 3) (i : Fin 2048) :
    View.ld X r0_1 (ix3 (0 : Fin 1) k i) = X (ix3 (1 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

theorem ld_2 (X : Vec Ideal S8x3x2048 .f32) (k : Fin 3) (i : Fin 2048) :
    View.ld X r0_2 (ix3 (0 : Fin 1) k i) = X (ix3 (2 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

theorem ld_3 (X : Vec Ideal S8x3x2048 .f32) (k : Fin 3) (i : Fin 2048) :
    View.ld X r0_3 (ix3 (0 : Fin 1) k i) = X (ix3 (3 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

theorem ld_4 (X : Vec Ideal S8x3x2048 .f32) (k : Fin 3) (i : Fin 2048) :
    View.ld X r0_4 (ix3 (0 : Fin 1) k i) = X (ix3 (4 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

theorem ld_5 (X : Vec Ideal S8x3x2048 .f32) (k : Fin 3) (i : Fin 2048) :
    View.ld X r0_5 (ix3 (0 : Fin 1) k i) = X (ix3 (5 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

theorem ld_6 (X : Vec Ideal S8x3x2048 .f32) (k : Fin 3) (i : Fin 2048) :
    View.ld X r0_6 (ix3 (0 : Fin 1) k i) = X (ix3 (6 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

theorem ld_7 (X : Vec Ideal S8x3x2048 .f32) (k : Fin 3) (i : Fin 2048) :
    View.ld X r0_7 (ix3 (0 : Fin 1) k i) = X (ix3 (7 : Fin 8) k i) :=
  congrArg X (funext fun a => Fin.ext (by
    match a with
    | ⟨0, _⟩ => rfl
    | ⟨1, _⟩ => show 0 + 1 * k.val = k.val; omega
    | ⟨2, _⟩ => show 0 + 1 * i.val = i.val; omega))

/-- The total, for clouds of real points given coordinates×points. -/
theorem total_apply (x0 x1 : Vec Ideal S8x3x2048 .f32) (p q : Fin 8 → Fin 2048 → Fin 3 → ℝ)
    (h0 : ∀ (b : Fin 8) (k : Fin 3) (i : Fin 2048), x0 (ix3 b k i) = ((p b i k : ℝ) : EReal))
    (h1 : ∀ (b : Fin 8) (k : Fin 3) (i : Fin 2048), x1 (ix3 b k i) = ((q b i k : ℝ) : EReal)) (w : S1x1.Idx) :
    total x0 x1 w = nest8 (· + ·) fun b => (∑ i : Fin 2048, fmin fun j : Fin 2048 => sq (p b i) (q b j))
      + ∑ j : Fin 2048, fmin fun i : Fin 2048 => sq (p b i) (q b j) := by
  have e0 := batchOf_apply (View.ld x0 r0_0) (View.ld x1 r0_0) (p 0) (q 0)
    (fun k i => (ld_0 x0 k i).trans (h0 0 k i)) (fun k i => (ld_0 x1 k i).trans (h1 0 k i)) w
  have e1 := batchOf_apply (View.ld x0 r0_1) (View.ld x1 r0_1) (p 1) (q 1)
    (fun k i => (ld_1 x0 k i).trans (h0 1 k i)) (fun k i => (ld_1 x1 k i).trans (h1 1 k i)) w
  have e2 := batchOf_apply (View.ld x0 r0_2) (View.ld x1 r0_2) (p 2) (q 2)
    (fun k i => (ld_2 x0 k i).trans (h0 2 k i)) (fun k i => (ld_2 x1 k i).trans (h1 2 k i)) w
  have e3 := batchOf_apply (View.ld x0 r0_3) (View.ld x1 r0_3) (p 3) (q 3)
    (fun k i => (ld_3 x0 k i).trans (h0 3 k i)) (fun k i => (ld_3 x1 k i).trans (h1 3 k i)) w
  have e4 := batchOf_apply (View.ld x0 r0_4) (View.ld x1 r0_4) (p 4) (q 4)
    (fun k i => (ld_4 x0 k i).trans (h0 4 k i)) (fun k i => (ld_4 x1 k i).trans (h1 4 k i)) w
  have e5 := batchOf_apply (View.ld x0 r0_5) (View.ld x1 r0_5) (p 5) (q 5)
    (fun k i => (ld_5 x0 k i).trans (h0 5 k i)) (fun k i => (ld_5 x1 k i).trans (h1 5 k i)) w
  have e6 := batchOf_apply (View.ld x0 r0_6) (View.ld x1 r0_6) (p 6) (q 6)
    (fun k i => (ld_6 x0 k i).trans (h0 6 k i)) (fun k i => (ld_6 x1 k i).trans (h1 6 k i)) w
  have e7 := batchOf_apply (View.ld x0 r0_7) (View.ld x1 r0_7) (p 7) (q 7)
    (fun k i => (ld_7 x0 k i).trans (h0 7 k i)) (fun k i => (ld_7 x1 k i).trans (h1 7 k i)) w
  unfold total
  rw [addf_apply, addf_apply, addf_apply, addf_apply, addf_apply, addf_apply, addf_apply,
    e0, e1, e2, e3, e4, e5, e6, e7]
  rfl

end Cert.Chamfer

end
-- ==== Proof.KRun.lean ====
import proofs.«112489_g47682726920370_cont_8to1_c_550_10_alg».proof.Proof.KStruct
import Idealize.ShloMosaic.Lib.Pipeline.Value
import Idealize.ShloMosaic.Lib.StableHlo.Run

/-!
# The kernel program's run, read

The program transposes each cloud from points×coordinates to coordinates×points, launches the body once on
the two whole transposed arrays and a 1×1 output, reshapes the output to a scalar and divides it by
`32768 = 2 · 8 · 2048`. So after the run the result buffer holds the body's total of the two transposed
clouds, divided by 32768, and the arguments are unchanged.
-/

set_option maxRecDepth 16384

noncomputable section

namespace Cert.Chamfer

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- Every window is the whole of its array: its one block sits at block index zero on every axis. -/
theorem block_at_zero : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- The first input's block is the whole transposed first cloud. -/
theorem iblk0_eq (c : Dev nD) (t : Fin cfg0.N) :
    (iblk m c 0 t : S8x3x2048.Idx → Elt F .f32) = (V m c main_v0 : S8x3x2048.Idx → Elt F .f32) := by
  obtain ⟨e0, e1, e2, -⟩ := block_at_zero t
  funext j
  show V m c main_v0 (((cfg0.win 0).blk t).view.emb j) = V m c main_v0 j
  refine congrArg (V m c main_v0) (funext fun a => Fin.ext ?_)
  match a with
  | ⟨0, _⟩ => show win0_0.index t (0 : Fin 3) * 8 + 1 * (j 0).val = (j 0).val; omega
  | ⟨1, _⟩ => show win0_0.index t (1 : Fin 3) * 3 + 1 * (j 1).val = (j 1).val; omega
  | ⟨2, _⟩ => show win0_0.index t (2 : Fin 3) * 2048 + 1 * (j 2).val = (j 2).val; omega

/-- The second input's block is the whole transposed second cloud. -/
theorem iblk1_eq (c : Dev nD) (t : Fin cfg0.N) :
    (iblk m c 1 t : S8x3x2048.Idx → Elt F .f32) = (V m c main_v1 : S8x3x2048.Idx → Elt F .f32) := by
  obtain ⟨-, -, -, e0, e1, e2, -⟩ := block_at_zero t
  funext j
  show V m c main_v1 (((cfg0.win 1).blk t).view.emb j) = V m c main_v1 j
  refine congrArg (V m c main_v1) (funext fun a => Fin.ext ?_)
  match a with
  | ⟨0, _⟩ => show win0_1.index t (0 : Fin 3) * 8 + 1 * (j 0).val = (j 0).val; omega
  | ⟨1, _⟩ => show win0_1.index t (1 : Fin 3) * 3 + 1 * (j 1).val = (j 1).val; omega
  | ⟨2, _⟩ => show win0_1.index t (2 : Fin 3) * 2048 + 1 * (j 2).val = (j 2).val; omega

/-- What the one grid point writes back is the 1×1 array holding the total. -/
theorem flushed_eq (c : Dev nD) (t : Fin cfg0.N) :
    (dats m 0 c).flushed 2 t
      = ((cfg0.win 2).blk t).view.read (Elt F) (total (V m c main_v0) (V m c main_v1)) := by
  show (cfg0.win 2).cut (grid0.coords t) ((dats m 0 c).after 2 t) = _
  rw [after0_2, out0_2_eq, View.canon_unit_zero zero_offsets, iblk0_eq, iblk1_eq]
  obtain ⟨-, -, -, -, -, -, e0, e1⟩ := block_at_zero t
  funext j
  show total (V m c main_v0) (V m c main_v1) j
    = total (V m c main_v0) (V m c main_v1) (((cfg0.win 2).blk t).view.emb j)
  refine congrArg (total (V m c main_v0) (V m c main_v1)) (funext fun a => Fin.ext ?_)
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- An index of the output array is in the point's block iff each coordinate is in the block's range. -/
theorem mem_blk (t : Fin cfg0.N) (i : S1x1.Idx) :
    i ∈ ((cfg0.win 2).blk t).view.set ↔ ∀ a : Fin 2, win0_2.index t a * S1x1.size a ≤ (i a).val
      ∧ (i a).val < win0_2.index t a * S1x1.size a + S1x1.size a := by
  show i ∈ ((View.whole main_v2).slice (win0_2.rect t)).set ↔ _
  rw [View.set_slice_whole, Rect.mem_set_unit]
  exact Iff.rfl

/-- The output array after the region: the total of the two transposed clouds. -/
theorem final (c : Dev nD) : (dats m 0 c).arrAt 2 cfg0.N = total (V m c main_v0) (V m c main_v1) :=
  (dats m 0 c).arrAt_eq_of_cover 2 _ (fun t _ => flushed_eq m c t) (fun i => ⟨t0_0, flush0_2 _, by
    rw [mem_blk]
    obtain ⟨-, -, -, -, -, -, e0, e1⟩ := block_at_zero t0_0
    intro a
    match a with
    | ⟨0, _⟩ =>
      show win0_2.index t0_0 (0 : Fin 2) * 1 ≤ (i 0).val ∧ (i 0).val < win0_2.index t0_0 (0 : Fin 2) * 1 + 1
      have h : (i 0).val < 1 := (i 0).isLt
      omega
    | ⟨1, _⟩ =>
      show win0_2.index t0_0 (1 : Fin 2) * 1 ≤ (i 1).val ∧ (i 1).val < win0_2.index t0_0 (1 : Fin 2) * 1 + 1
      have h : (i 1).val < 1 := (i 1).isLt
      omega⟩)

/-- The region finds the first cloud transposed. -/
theorem V_v0 (c : Dev nD) : (V m c main_v0 : S8x3x2048.Idx → Elt F .f32)
    = transpose S8x3x2048 [0, 2, 1] (m ((c : Thread nD τ).loc main_arg0)) transposes_S8x2048x3_S8x3x2048_0_2_1 := by
  show StableHlo.after hostOps0 (fun b => m (c, b)) (Proc.devRef .tc main_v0) = _
  after_results

/-- The region finds the second cloud transposed. -/
theorem V_v1 (c : Dev nD) : (V m c main_v1 : S8x3x2048.Idx → Elt F .f32)
    = transpose S8x3x2048 [0, 2, 1] (m ((c : Thread nD τ).loc main_arg1)) transposes_S8x2048x3_S8x3x2048_0_2_1 := by
  show StableHlo.after hostOps0 (fun b => m (c, b)) (Proc.devRef .tc main_v1) = _
  after_results

/-- The program's result as a function of the two argument arrays. -/
def result (X Y : FVec F S8x2048x3 .f32) : FVec F S_ .f32 :=
  Host.divf (shapeCast S_ (total (transpose S8x3x2048 [0, 2, 1] X transposes_S8x2048x3_S8x3x2048_0_2_1)
      (transpose S8x3x2048 [0, 2, 1] Y transposes_S8x2048x3_S8x3x2048_0_2_1)) shapeCasts_S1x1_S_)
    (constant S_ .f32 0x47000000#32)

/-- The lines after the region leave the result buffer at `result` of the arguments. -/
theorem tail_v4 (c : Dev nD) :
    Pipeline.afterTail₀ cfgs (dats m) 0 (V0 m) [hostOps1] c main_v4
      = result (m ((c : Thread nD τ).loc main_arg0)) (m ((c : Thread nD τ).loc main_arg1)) := by
  unfold Pipeline.afterTail₀
  show StableHlo.after hostOps1 _ (Proc.devRef .tc main_v4) = _
  after_results
  have hw := (Pipeline.withArrays_arr spec0 launch0.win.arr_inj c (V0 m c)
    (fun w => (dats m 0 c).arrAt w (cfgs 0).N) 2).trans (final m c)
  unfold result
  rw [← V_v0 m c, ← V_v1 m c]
  refine congrArg (fun z => Host.divf z (constant S_ .f32 0x47000000#32)) (funext fun i => ?_)
  show shapeCast S_ (Pipeline.withArrays (cfgs 0).spec c (V0 m c) (fun w => (dats m 0 c).arrAt w (cfgs 0).N)
    (Proc.devRef .tc main_v2)) shapeCasts_S1x1_S_ i = _
  rw [show Pipeline.withArrays (cfgs 0).spec c (V0 m c) (fun w => (dats m 0 c).arrAt w (cfgs 0).N)
    (Proc.devRef .tc main_v2) = total (V m c main_v0) (V m c main_v1) from hw]

/-- The kernel program's run: it terminates with the result buffer at `result` of the arguments and the
    arguments unchanged. -/
theorem run : θ_run defs (onTc (τ := τ) (main (F := F))) ⟨m, fun _ => 0, ρ⟩ fun r => ∀ c : Dev nD,
      r.2.mem ((c : Thread nD τ).loc main_v4)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Chamfer

end
-- ==== Proof.RefSide.lean ====
import proofs.«112489_g47682726920370_cont_8to1_c_550_10_alg».proof.Defs
import proofs.«112489_g47682726920370_cont_8to1_c_550_10_alg».proof.Proof.Gen.ReferenceIdeal.Run
import proofs.«112489_g47682726920370_cont_8to1_c_550_10_alg».proof.Proof.Gen.ReferenceIdeal.Read
import proofs.«112489_g47682726920370_cont_8to1_c_550_10_alg».proof.Proof.Algebra
import proofs.«112489_g47682726920370_cont_8to1_c_550_10_alg».proof.Proof.Consts
import Idealize.ShloMosaic.Lib.ValueIdx

/-!
# The reference's value

For two clouds of finite points `p b i`, `q b j` in ℝ³ (batch `b`, 2048 points each): the reference forms
every squared distance, takes for each point of one cloud the minimum over the other, sums those over
the cloud and divides by 2048, sums over the batch and divides by 8 — once in each direction — and halves
the sum of the two.
-/

set_option maxRecDepth 16384

noncomputable section

open scoped BigOperators

namespace Cert.Chamfer.RefSide

open Idealize.ShloMosaic Idealize.ShloMosaic.ValueIdx Cert.ReferenceIdeal Cert.ReferenceIdeal.Gen
  Cert.ReferenceIdeal.Read Cert.Chamfer.Alg

variable (A B : (⟨S8x2048x3, .f32⟩ : BufTy).Contents (Elt Ideal)) (p q : Fin 8 → Fin 2048 → Fin 3 → ℝ)
  (hA : ∀ (b : Fin 8) (i : Fin 2048) (k : Fin 3), A (ix3 b i k) = ((p b i k : ℝ) : EReal))
  (hB : ∀ (b : Fin 8) (i : Fin 2048) (k : Fin 3), B (ix3 b i k) = ((q b i k : ℝ) : EReal))

/-- The zero the reference's sums start from. -/
theorem zero_first : (constant (F := Ideal) S_ .f32 0x00000000#32) (Shape.Idx.first h_S_) = 0 :=
  Consts.ofBits_zero

include hA hB in
/-- First direction: the squared distance from point `i` of the first cloud to point `j` of the second. -/
theorem pair1 (b : Fin 8) (i j : Fin 2048) : val_main_v6 (F := Ideal) A B (ix3 b i j) = sq (p b i) (q b j) := by
  rw [val_main_v6_apply]
  have eA : ∀ k : Fin 3, idx_main_v0 (idx_main_v2 (idx_main_v6 (ix3 b i j) k)) = ix3 b i k := fun k =>
    funext fun c => Fin.ext (by match c with | ⟨0, _⟩ => rfl | ⟨1, _⟩ => rfl | ⟨2, _⟩ => rfl)
  have eB : ∀ k : Fin 3, idx_main_v1 (idx_main_v3 (idx_main_v6 (ix3 b i j) k)) = ix3 b j k := fun k =>
    funext fun c => Fin.ext (by match c with | ⟨0, _⟩ => rfl | ⟨1, _⟩ => rfl | ⟨2, _⟩ => rfl)
  simp only [val_main_v5_apply, val_main_v4_apply, val_main_v2_apply, val_main_v0_apply, val_main_v3_apply,
    val_main_v1_apply, eA, eB, hA, hB]
  rw [show val_main_cst (F := Ideal) (Shape.Idx.first h_S_) = 0 from Consts.ofBits_zero, zero_add]
  exact ref_dist (p b i) (q b j)

include hA hB in
/-- Second direction: from point `j` of the second cloud to point `i` of the first. -/
theorem pair2 (b : Fin 8) (j i : Fin 2048) : val_main_v19 (F := Ideal) A B (ix3 b j i) = sq (q b j) (p b i) := by
  rw [val_main_v19_apply]
  have eB : ∀ k : Fin 3, idx_main_v13 (idx_main_v15 (idx_main_v19 (ix3 b j i) k)) = ix3 b j k := fun k =>
    funext fun c => Fin.ext (by match c with | ⟨0, _⟩ => rfl | ⟨1, _⟩ => rfl | ⟨2, _⟩ => rfl)
  have eA : ∀ k : Fin 3, idx_main_v14 (idx_main_v16 (idx_main_v19 (ix3 b j i) k)) = ix3 b i k := fun k =>
    funext fun c => Fin.ext (by match c with | ⟨0, _⟩ => rfl | ⟨1, _⟩ => rfl | ⟨2, _⟩ => rfl)
  simp only [val_main_v18_apply, val_main_v17_apply, val_main_v15_apply, val_main_v13_apply, val_main_v16_apply,
    val_main_v14_apply, eA, eB, hA, hB]
  rw [show val_main_cst_5 (F := Ideal) (Shape.Idx.first h_S_) = 0 from Consts.ofBits_zero, zero_add]
  exact ref_dist (q b j) (p b i)

/-- A minimum over the last axis of an 8×2048×2048 array, from `+∞`. -/
theorem min_last (X : (⟨S8x2048x2048, .f32⟩ : BufTy).Contents (Elt Ideal)) (b : Fin 8) (i : Fin 2048) :
    Host.reduce FloatOps.minimumf X (constant (F := Ideal) S_ .f32 0x7F800000#32) reducesTo_S8x2048x2048_S8x2048_d2 h_S_ (ix2 b i)
      = fmin fun j : Fin 2048 => X (ix3 b i j) := by
  have hR : S8x2048x2048.Reduces [2] S8x2048 := by decide
  have h := Host.reduce_eq_fold_single (FloatOps.minimumf (F := Ideal) (φ := .f32)) X
    (constant (F := Ideal) S_ .f32 0x7F800000#32) reducesTo_S8x2048x2048_S8x2048_d2 hR h_S_ (ix2 b i)
  refine h.trans ?_
  unfold fmin
  show Finset.fold min (Ideal.ofBits .f32 0x7F800000#32) _ _ = _
  rw [Consts.ofBits_inf]
  refine congrArg (fun f => Finset.fold min ⊤ f Finset.univ) (funext fun j => ?_)
  exact congrArg X (funext fun c => Fin.ext (by match c with | ⟨0, _⟩ => rfl | ⟨1, _⟩ => rfl | ⟨2, _⟩ => rfl))

/-- The batch axis's indices are its eight coordinates. -/
def idxBatch : S8.Idx ≃ Fin 8 where
  toFun i := i 0
  invFun b := ix1 b
  left_inv i := (eq_ix1 i).symm
  right_inv b := rfl

include hA hB in
/-- First direction, one batch element: the sum over the first cloud of the minimum over the second, over 2048. -/
theorem mean1 (b : Fin 8) :
    val_main_v10 (F := Ideal) A B (ix1 b)
      = Ideal.div (0 + ∑ i : Fin 2048, fmin fun j : Fin 2048 => sq (p b i) (q b j)) ((2048 : ℝ) : EReal) := by
  rw [val_main_v10_apply, val_main_v9_apply, val_main_cst_2_apply, val_main_v8_apply]
  show Ideal.div _ (Ideal.ofBits .f32 0x45000000#32) = _
  rw [Consts.ofBits_2048, show val_main_cst_1 (F := Ideal) (Shape.Idx.first h_S_) = 0 from Consts.ofBits_zero]
  refine congrArg (fun s => Ideal.div (0 + s) ((2048 : ℝ) : EReal)) (Finset.sum_congr rfl fun i _ => ?_)
  rw [show idx_main_v8 (ix1 b) i = ix2 b i from
    funext fun c => Fin.ext (by match c with | ⟨0, _⟩ => rfl | ⟨1, _⟩ => rfl)]
  unfold val_main_v7
  rw [show val_main_cst_0 (F := Ideal) = constant (F := Ideal) S_ .f32 0x7F800000#32 from rfl, min_last]
  exact congrArg fmin (funext fun j => pair1 A B p q hA hB b i j)

include hA hB in
/-- Second direction, one batch element (the squared distance is symmetric, so it is written with the first
    cloud's point first). -/
theorem mean2 (b : Fin 8) :
    val_main_v23 (F := Ideal) A B (ix1 b)
      = Ideal.div (0 + ∑ j : Fin 2048, fmin fun i : Fin 2048 => sq (p b i) (q b j)) ((2048 : ℝ) : EReal) := by
  rw [val_main_v23_apply, val_main_v22_apply, val_main_cst_8_apply, val_main_v21_apply]
  show Ideal.div _ (Ideal.ofBits .f32 0x45000000#32) = _
  rw [Consts.ofBits_2048, show val_main_cst_7 (F := Ideal) (Shape.Idx.first h_S_) = 0 from Consts.ofBits_zero]
  refine congrArg (fun s => Ideal.div (0 + s) ((2048 : ℝ) : EReal)) (Finset.sum_congr rfl fun j _ => ?_)
  rw [show idx_main_v21 (ix1 b) j = ix2 b j from
    funext fun c => Fin.ext (by match c with | ⟨0, _⟩ => rfl | ⟨1, _⟩ => rfl)]
  unfold val_main_v20
  rw [show val_main_cst_6 (F := Ideal) = constant (F := Ideal) S_ .f32 0x7F800000#32 from rfl, min_last]
  exact congrArg fmin (funext fun i => (pair2 A B p q hA hB b j i).trans (sq_comm _ _))

include hA hB in
/-- The reference's result. -/
theorem value (w : S_.Idx) :
    val_main_v27 (F := Ideal) A B w
      = Ideal.div (Ideal.div (0 + ∑ b : Fin 8,
            Ideal.div (0 + ∑ i : Fin 2048, fmin fun j : Fin 2048 => sq (p b i) (q b j)) ((2048 : ℝ) : EReal)) ((8 : ℝ) : EReal)
          + Ideal.div (0 + ∑ b : Fin 8,
            Ideal.div (0 + ∑ j : Fin 2048, fmin fun i : Fin 2048 => sq (p b i) (q b j)) ((2048 : ℝ) : EReal)) ((8 : ℝ) : EReal))
          ((2 : ℝ) : EReal) := by
  rw [val_main_v27_apply, val_main_cst_11_apply, val_main_v26_apply, val_main_v12_apply, val_main_v25_apply,
    val_main_cst_4_apply, val_main_cst_10_apply, val_main_v11_apply, val_main_v24_apply]
  show Ideal.div (Ideal.div _ (Ideal.ofBits .f32 0x41000000#32) + Ideal.div _ (Ideal.ofBits .f32 0x41000000#32))
    (Ideal.ofBits .f32 0x40000000#32) = _
  rw [Consts.ofBits_two, Consts.ofBits_eight,
    show val_main_cst_3 (F := Ideal) (Shape.Idx.first h_S_) = 0 from Consts.ofBits_zero,
    show val_main_cst_9 (F := Ideal) (Shape.Idx.first h_S_) = 0 from Consts.ofBits_zero,
    ← Equiv.sum_comp idxBatch.symm (val_main_v10 (F := Ideal) A B),
    ← Equiv.sum_comp idxBatch.symm (val_main_v23 (F := Ideal) A B)]
  simp only [show ∀ b : Fin 8, idxBatch.symm b = ix1 b from fun _ => rfl, mean1 A B p q hA hB, mean2 A B p q hA hB]

end Cert.Chamfer.RefSide

end
-- ==== Proof.Finite.lean ====
import proofs.«112489_g47682726920370_cont_8to1_c_550_10_alg».proof.Pre_finite_inputs
import proofs.«112489_g47682726920370_cont_8to1_c_550_10_alg».proof.Proof.Consts
import Idealize.ShloMosaic.Lib.ReduceAll
import Idealize.ShloMosaic.Lib.ValueIdx

/-!
# The precondition gives real coordinates

The precondition says that every entry of both clouds has absolute value below `+∞`. On the extended
reals that leaves exactly the reals, so each cloud is the image of an array of real coordinates.
-/

noncomputable section

namespace Cert.Chamfer.Finite

open Idealize.ShloMosaic Idealize.ShloMosaic.ValueIdx Cert.Pre_finite_inputs

instance : Subsingleton S_.Idx := ⟨fun a b => funext fun d => d.elim0⟩

/-- An extended real whose absolute value is below `+∞` is a real. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition every entry of both arrays is a real. -/
theorem finite_of_pre [Facts] (X Y : FVec Ideal S8x2048x3 .f32) (h : fn (F := Ideal) X Y = fun _ => 1#1) :
    (∀ i, ∃ r : ℝ, X i = (r : EReal)) ∧ (∀ i, ∃ r : ℝ, Y i = (r : EReal)) := by
  have h0 := congrFun h ix0
  dsimp only [fn] at h0
  obtain ⟨hX, hY⟩ := IntOp.andi_eq_one.1 h0
  refine ⟨fun i => ?_, fun i => ?_⟩
  · have e := Host.reduce_andi_all _ _ _ _ _ hX i
    have e' : Ideal.cmp .olt (max (X i) (-(X i))) (Ideal.ofBits .f32 0x7F800000#32) = 1#1 := e
    rw [Consts.ofBits_inf] at e'
    exact real_of_abs_lt _ e'
  · have e := Host.reduce_andi_all _ _ _ _ _ hY i
    have e' : Ideal.cmp .olt (max (Y i) (-(Y i))) (Ideal.ofBits .f32 0x7F800000#32) = 1#1 := e
    rw [Consts.ofBits_inf] at e'
    exact real_of_abs_lt _ e'

/-- The real coordinates of an array of extended reals. -/
def realOf (X : FVec Ideal S8x2048x3 .f32) (b : Fin 8) (i : Fin 2048) (k : Fin 3) : ℝ := (X (ix3 b i k)).toReal

theorem coe_realOf (X : FVec Ideal S8x2048x3 .f32) (hX : ∀ i, ∃ r : ℝ, X i = (r : EReal)) (b : Fin 8) (i : Fin 2048)
    (k : Fin 3) : X (ix3 b i k) = ((realOf X b i k : ℝ) : EReal) := by
  obtain ⟨r, hr⟩ := hX (ix3 b i k)
  unfold realOf
  rw [hr, EReal.toReal_coe]

end Cert.Chamfer.Finite

end
-- ==== Proof.Bridge.lean ====
import proofs.«112489_g47682726920370_cont_8to1_c_550_10_alg».proof.Proof.KValue
import proofs.«112489_g47682726920370_cont_8to1_c_550_10_alg».proof.Proof.KRun
import proofs.«112489_g47682726920370_cont_8to1_c_550_10_alg».proof.Proof.RefSide
import proofs.«112489_g47682726920370_cont_8to1_c_550_10_alg».proof.Proof.Finite

/-!
# The two results are one function of finite inputs

For finite clouds, with real coordinates `p` (first cloud) and `q` (second): the kernel's result is the
sum over the batch of (sum over points of the first cloud of the squared distance to the nearest point of the
second, plus the same with the clouds exchanged), divided by `32768`; the reference averages each direction
over 2048 points and 8 batch elements and halves the sum. The squared distance is symmetric, multiplication
by a positive constant distributes over these sums, and `2048 · 8 · 2 = 32768`.
-/

set_option maxRecDepth 16384

noncomputable section

open scoped BigOperators

namespace Cert.Chamfer

open Idealize.ShloMosaic Idealize.ShloMosaic.ValueIdx Cert.Chamfer.Alg

/-- A host quotient read at an index. -/
theorem hostDivf_read {s : Shape} (z c : FVec Ideal s .f32) (w : s.Idx) : Host.divf z c w = Ideal.div (z w) (c w) := rfl

/-- A shape cast read at an index: the operand at the matching index. -/
theorem shapeCast_read {α : Type} {s t : Shape} (x : s.Idx → α) (h : s.ShapeCasts t) (w : t.Idx) :
    shapeCast t x h w = x (Shape.reshapeEquiv h w) := rfl

/-- Under the precondition the reference's result is the kernel program's. -/
theorem bridge [Cert.Pre_finite_inputs.Facts] [Cert.ReferenceIdeal.Facts] (A B : FVec Ideal Cert.KernelIdeal.S8x2048x3 .f32)
    (hpre : Cert.Pre_finite_inputs.fn (F := Ideal) A B = fun _ => 1#1) :
    Cert.ReferenceIdeal.Read.val_main_v27 (F := Ideal) A B = result (F := Ideal) A B := by
  obtain ⟨fA, fB⟩ := Finite.finite_of_pre A B hpre
  have hA := Finite.coe_realOf A fA
  have hB := Finite.coe_realOf B fB
  funext w
  rw [RefSide.value A B (Finite.realOf A) (Finite.realOf B) hA hB w]
  rw [← average_eq]
  unfold result
  rw [hostDivf_read, shapeCast_read, constant_apply, Consts.ofBits_32768, total_apply _ _ (Finite.realOf A) (Finite.realOf B)
    (fun b k i => (transpose_ix3_021_apply A _ b k i).trans (hA b i k))
    (fun b k i => (transpose_ix3_021_apply B _ b k i).trans (hB b i k))]

end Cert.Chamfer

end
-- ==== Proof.lean ====
/- The Chamfer loss of two batches of point clouds (8 × 2048 points of ℝ³), computed two ways.

   The kernel transposes each cloud, and for each batch element forms all squared distances
   `|a_i|² + |b_j|² − 2 a_i·b_j` as one sixteen-row product per strip of 256 points — the rows beyond the
   first three carry the squared norms against rows of ones, and "low part" rows `v − v` that vanish on
   finite values at the exact instance, where a change of float format is the identity. From each strip's
   256×2048 matrix it takes the row minima (summed) and the column minima (combined across the strips,
   then summed), adds everything up over the batch, and divides by `2·8·2048 = 32768`.
   The reference forms `Σ_k (a_ik − b_jk)²`, takes minima over one cloud and means over the other and over the
   batch, in both directions, and halves the sum.
   On finite inputs the two squared distances agree (expand the square in ℝ), the strip-wise minima and sums
   regroup to the plain ones (minimum and addition are associative and commutative on the extended reals),
   and multiplication by a positive constant distributes over sums, so the two averages agree. -/
import proofs.«112489_g47682726920370_cont_8to1_c_550_10_alg».proof.Defs
import proofs.«112489_g47682726920370_cont_8to1_c_550_10_alg».proof.Proof.Gen.Kernel
import proofs.«112489_g47682726920370_cont_8to1_c_550_10_alg».proof.Proof.Gen.Kernel.Frame
import proofs.«112489_g47682726920370_cont_8to1_c_550_10_alg».proof.Proof.Gen.KernelIdeal
import proofs.«112489_g47682726920370_cont_8to1_c_550_10_alg».proof.Proof.Gen.KernelIdeal.Frame
import proofs.«112489_g47682726920370_cont_8to1_c_550_10_alg».proof.Proof.Gen.ReferenceIdeal
import proofs.«112489_g47682726920370_cont_8to1_c_550_10_alg».proof.Proof.Gen.ReferenceIdeal.Run
import proofs.«112489_g47682726920370_cont_8to1_c_550_10_alg».proof.Proof.Gen.ReferenceIdeal.Read
import proofs.«112489_g47682726920370_cont_8to1_c_550_10_alg».proof.Proof.Gen.Pre_finite_inputs
import proofs.«112489_g47682726920370_cont_8to1_c_550_10_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each rewrite of the ideal pass removed a round trip through the sixteen-bit format, which is the identity
    at the exact instance and the rounding at the word-level one. -/
theorem preserves : Cert.preserves_Kernel_KernelIdeal :=
  have s3 := IdealRules.truncf_extf.statement Cert.KernelIdeal.S3x2048 .f32 .bf16
  have s1 := IdealRules.truncf_extf.statement Cert.KernelIdeal.S1x2048 .f32 .bf16
  ⟨s3, s3, s1, s1, s3, s3, s1, s1, s3, s3, s1, s1, s3, s3, s1, s1, s3, s3, s1, s1, s3, s3, s1, s1, s3, s3, s1, s1, s3, s3, s1, s1⟩

/-- Both programs end at the kernel program's result of the shared arguments: the kernel by its run, the
    reference by its run and the equality of the two results on finite inputs. -/
theorem algebraic : Cert.algebraic_KernelIdeal_ReferenceIdeal := by
  intro m ρ m' ρ' hpre hagree
  refine ⟨fun c => Cert.Chamfer.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Chamfer.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v27_eq]
  exact Cert.Chamfer.bridge _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
